-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S1024 : Shape := ⟨1, ![1024]⟩
abbrev S256 : Shape := ⟨1, ![256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S1024 .f32) (main_arg5 : FVec F S256 .f32) (main_arg6 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S32x1024x256 .f32) (main_arg1 : FVec F S32x1024x256 .f32) (main_arg2 : FVec F S32x1024x256 .f32) (main_arg3 : FVec F S1024 .f32) (main_arg4 : FVec F S1024 .f32) (main_arg5 : FVec F S256 .f32) (main_arg6 : FVec F S256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S32x1024x256 .f32 := Host.absf main_arg1
  let main_cst_0 : FVec F S_ .f32 := constant S_ .f32 0x7F800000#32
  let main_v5 : FVec F S32x1024x256 .f32 := broadcastInDim S32x1024x256 ![] bcast_S_S32x1024x256 main_cst_0
  let main_v6 : IVec S32x1024x256 1 := cmpf .olt main_v4 main_v5
  let main_c_1 : IVec S_ 1 := constantI S_ 1 1#1
  let main_v7 : IVec S_ 1 := (fun x v => Host.reduce IntOp.andi x v reducesTo_S32x1024x256_S_d0_1_2 h_S_) main_v6 main_c_1
  let main_v8 : IVec S_ 1 := andi main_v3 main_v7
  let main_v9 : FVec F S32x1024x256 .f32 := Host.absf main_arg2
  let main_cst_2 : FVec F S_ .f32 := constant S_ .f32 0x7F800000#32
  let main_v10 : FVec F S32x1024x256 .f32 := broadcastInDim S32x1024x256 ![] bcast_S_S32x1024x256 main_cst_2
  let main_v11 : IVec S32x1024x256 1 := cmpf .olt main_v9 main_v10
  let main_c_3 : IVec S_ 1 := constantI S_ 1 1#1
  let main_v12 : IVec S_ 1 := (fun x v => Host.reduce IntOp.andi x v reducesTo_S32x1024x256_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S32x1024x256 : Shape := ⟨3, ![32, 1024, 256]⟩
abbrev S1024 : Shape := ⟨1, ![1024]⟩
abbrev S256 : Shape := ⟨1, ![256]⟩
abbrev S1x1024 : Shape := ⟨2, ![1, 1024]⟩
abbrev S1x256 : Shape := ⟨2, ![1, 256]⟩
abbrev S1x1024x256 : Shape := ⟨3, ![1, 1024, 256]⟩
abbrev S1024x256 : Shape := ⟨2, ![1024, 256]⟩
abbrev S1024x1 : Shape := ⟨2, ![1024, 1]⟩
abbrev S1x256x256 : Shape := ⟨3, ![1, 256, 256]⟩
abbrev S256x256 : Shape := ⟨2, ![256, 256]⟩
abbrev S256x1 : Shape := ⟨2, ![256, 1]⟩
abbrev S256x1024 : Shape := ⟨2, ![256, 1024]⟩

abbrev nBuf : Space → Nat
  | .hbm => 12
  | .vmem => 12
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S32x1024x256, .f32⟩
  | .hbm, ⟨3, _⟩ => ⟨S1024, .f32⟩
  | .hbm, ⟨4, _⟩ => ⟨S1024, .f32⟩
  | .hbm, ⟨5, _⟩ => ⟨S256, .f32⟩
  | .hbm, ⟨6, _⟩ => ⟨S256, .f32⟩
  | .hbm, ⟨7, _⟩ => ⟨S1x1024, .f32⟩
  | .hbm, ⟨8, _⟩ => ⟨S1x1024, .f32⟩
  | .hbm, ⟨9, _⟩ => ⟨S1x256, .f32⟩
  | .hbm, ⟨10, _⟩ => ⟨S1x256, .f32⟩
  | .hbm, ⟨11, _⟩ => ⟨S32x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024, .f32⟩
  | .local _ .vmem, ⟨7, _⟩ => ⟨S1x1024, .f32⟩
  | .local _ .vmem, ⟨8, _⟩ => ⟨S1x256, .f32⟩
  | .local _ .vmem, ⟨9, _⟩ => ⟨S1x256, .f32⟩
  | .local _ .vmem, ⟨10, _⟩ => ⟨S1x1024x256, .f32⟩
  | .local _ .vmem, ⟨11, _⟩ => ⟨S1x1024x256, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c256_i32 : BitVec 32 := 256#32
  let v22 : BitVec 32 := Scalar.muli c0_i32 c256_i32
  v22
def k0_off1 (c0_i32 : BitVec 32) : Fin 3 → Nat :=
  let c0_14 : Index := 0#32
  let c256_i32 : BitVec 32 := 256#32
  let v22 : BitVec 32 := Scalar.muli c0_i32 c256_i32
  let v23 : BitVec 32 := v22
  let v24 : Index := Scalar.indexCast v23
  let c0_15 : Index := 0#32
  ![0, v24.toNat, 0]
def k0_mult2 : BitVec 32 :=
  let c1_i32 : BitVec 32 := 1#32
  let c256_i32_32 : BitVec 32 := 256#32
  let v87 : BitVec 32 := Scalar.muli c1_i32 c256_i32_32
  v87
def k0_mult3 : BitVec 32 :=
  let c2_i32 : BitVec 32 := 2#32
  let c256_i32_51 : BitVec 32 := 256#32
  let v152 : BitVec 32 := Scalar.muli c2_i32 c256_i32_51
  v152
def k0_mult4 : BitVec 32 :=
  let c3_i32 : BitVec 32 := 3#32
  let c256_i32_70 : BitVec 32 := 256#32
  let v217 : BitVec 32 := Scalar.muli c3_i32 c256_i32_70
  v217
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1024_S1x1024 : S1024.ShapeCasts S1x1024
  shapeCasts_S256_S1x256 : S256.ShapeCasts S1x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  h_S1x256x256 : 0 < S1x256x256.numel
  shapeCasts_S1x256x256_S256x256 : S1x256x256.ShapeCasts S256x256
  reduces_S256x256_S256 : S256x256.Reduces [1] S256
  shapeCasts_S256_S256x1 : S256.ShapeCasts S256x1
  broadcasts_S256x1_S256x256 : S256x1.Broadcasts S256x256
  reduces_S256x1024_S256 : S256x1024.Reduces [1] S256
  broadcasts_S256x1_S256x1024 : S256x1.Broadcasts S256x1024
  broadcasts_S1x1024_S256x1024 : S1x1024.Broadcasts S256x1024
  broadcasts_S1x256_S256x256 : S1x256.Broadcasts S256x256
  shapeCasts_S256x256_S1x256x256 : S256x256.ShapeCasts S1x256x256
  dot_S256x256_S1024x256_S256x1024_1_1_0_0_n_n_wf : DotDims.WF S256x256 S1024x256 S256x1024 [1] [1] [0] [0] [] []
  dot_S256x1024_S1024x256_S256x256_1_0_0_1_n_n_wf : DotDims.WF S256x1024 S1024x256 S256x256 [1] [0] [0] [1] [] []
  hrank0 : 0 < grid0.rank
  k0_mult1_dvd : 256 ∣ k0_mult1.toNat
  k0_off1_inb : ∀ (r : Fin 4), ∀ a, (k0_off1 (BitVec.ofNat 32 r.val)) a + S1x256x256.size a ≤ S1x1024x256.size a
  k0_mult2_dvd : 256 ∣ k0_mult2.toNat
  k0_mult3_dvd : 256 ∣ k0_mult3.toNat
  k0_mult4_dvd : 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S32x1024x256.size a
  hwx0_1 : ∀ i : grid0.Coords, EltTy.bits .f32 = 32 ∨ (Rect.block (s := S32x1024x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S32x1024x256.size a
  hwx0_2 : ∀ i : grid0.Coords, EltTy.bits .f32 = 32 ∨ (Rect.block (s := S32x1024x256) S1x1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x256.size a ≤ S32x1024x256.size a
  hwx0_7 : ∀ i : grid0.Coords, EltTy.bits .f32 = 32 ∨ (Rect.block (s := S32x1024x256) S1x1024x256.size (cc0_transform_7 i) (hinb0_7 i)).WholeWords (EltTy.packing .f32)

variable [Facts₀]

def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S1024 : Shape := ⟨1, ![1024]⟩
abbrev S256 : Shape := ⟨1, ![256]⟩
abbrev S_ : Shape := ⟨0, ![]⟩
abbrev S32x1024 : Shape := ⟨2, ![32, 1024]⟩
abbrev S32x1024x1 : Shape := ⟨3, ![32, 1024, 1]⟩
abbrev S32x1024x1024 : Shape := ⟨3, ![32, 1024, 1024]⟩
abbrev S1x1x1024 : Shape := ⟨3, ![1, 1, 1024]⟩
abbrev S1x1x256 : Shape := ⟨3, ![1, 1, 256]⟩

abbrev nBuf : Space → Nat
  | .hbm => 87
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S32x1024x256, .f32⟩
  | .hbm, ⟨3, _⟩ => ⟨S1024, .f32⟩
  | .hbm, ⟨4, _⟩ => ⟨S1024, .f32⟩
  | .hbm, ⟨5, _⟩ => ⟨S256, .f32⟩
  | .hbm, ⟨6, _⟩ => ⟨S256, .f32⟩
  | .hbm, ⟨7, _⟩ => ⟨S32x1024x256, .f32⟩
  | .hbm, ⟨8, _⟩ => ⟨S_, .f32⟩
  | .hbm, ⟨9, _⟩ => ⟨S32x1024, .f32⟩
  | .hbm, ⟨10, _⟩ => ⟨S32x1024x1, .f32⟩
  | .hbm, ⟨11, _⟩ => ⟨S_, .f32⟩
  | .hbm, ⟨12, _⟩ => ⟨S32x1024x1, .f32⟩
  | .hbm, ⟨13, _⟩ => ⟨S32x1024x1, .f32⟩
  | .hbm, ⟨14, _⟩ => ⟨S32x1024x1, .f32⟩
  | .hbm, ⟨15, _⟩ => ⟨S32x1024x256, .f32⟩
  | .hbm, ⟨16, _⟩ => ⟨S32x1024x256, .f32⟩
  | .hbm, ⟨17, _⟩ => ⟨S32x1024x256, .f32⟩
  | .hbm, ⟨18, _⟩ => ⟨S_, .f32⟩
  | .hbm, ⟨19, _⟩ => ⟨S32x1024, .f32⟩
  | .hbm, ⟨20, _⟩ => ⟨S32x1024x1, .f32⟩
  | .hbm, ⟨21, _⟩ => ⟨S_, .f32⟩
  | .hbm, ⟨22, _⟩ => ⟨S32x1024x1, .f32⟩
  | .hbm, ⟨23, _⟩ => ⟨S32x1024x1, .f32⟩
  | .hbm, ⟨24, _⟩ => ⟨S32x1024x1, .f32⟩
  | .hbm, ⟨25, _⟩ => ⟨S32x1024x256, .f32⟩
  | .hbm, ⟨26, _⟩ => ⟨S32x1024x256, .f32⟩
  | .hbm, ⟨27, _⟩ => ⟨S32x1024x1024, .f32⟩
  | .hbm, ⟨28, _⟩ => ⟨S_, .f32⟩
  | .hbm, ⟨29, _⟩ => ⟨S32x1024, .f32⟩
  | .hbm, ⟨30, _⟩ => ⟨S32x1024x1, .f32⟩
  | .hbm, ⟨31, _⟩ => ⟨S_, .f32⟩
  | .hbm, ⟨32, _⟩ => ⟨S32x1024x1, .f32⟩
  | .hbm, ⟨33, _⟩ => ⟨S32x1024x1, .f32⟩
  | .hbm, ⟨34, _⟩ => ⟨S32x1024x1024, .f32⟩
  | .hbm, ⟨35, _⟩ => ⟨S32x1024x1024, .f32⟩
  | .hbm, ⟨36, _⟩ => ⟨S32x1024x1024, .f32⟩
  | .hbm, ⟨37, _⟩ => ⟨S_, .f32⟩
  | .hbm, ⟨38, _⟩ => ⟨S32x1024, .f32⟩
  | .hbm, ⟨39, _⟩ => ⟨S32x1024x1, .f32⟩
  | .hbm, ⟨40, _⟩ => ⟨S_, .f32⟩
  | .hbm, ⟨41, _⟩ => ⟨S32x1024x1, .f32⟩
  | .hbm, ⟨42, _⟩ => ⟨S32x1024x1, .f32⟩
  | .hbm, ⟨43, _⟩ => ⟨S32x1024x1024, .f32⟩
  | .hbm, ⟨44, _⟩ => ⟨S32x1024x1024, .f32⟩
  | .hbm, ⟨45, _⟩ => ⟨S_, .f32⟩
  | .hbm, ⟨46, _⟩ => ⟨S32x1024x1, .f32⟩
  | .hbm, ⟨47, _⟩ => ⟨S32x1024x1, .f32⟩
  | .hbm, ⟨48, _⟩ => ⟨S32x1024x1, .f32⟩
  | .hbm, ⟨49, _⟩ => ⟨S32x1024x1024, .f32⟩
  | .hbm, ⟨50, _⟩ => ⟨S32x1024x1024, .f32⟩
  | .hbm, ⟨51, _⟩ => ⟨S1x1x1024, .f32⟩
  | .hbm, ⟨52, _⟩ => ⟨S32x1024x1024, .f32⟩
  | .hbm, ⟨53, _⟩ => ⟨S32x1024x1024, .f32⟩
  | .hbm, ⟨54, _⟩ => ⟨S1x1x1024, .f32⟩
  | .hbm, ⟨55, _⟩ => ⟨S32x1024x1024, .f32⟩
  | .hbm, ⟨56, _⟩ => ⟨S32x1024x1024, .f32⟩
  | .hbm, ⟨57, _⟩ => ⟨S32x1024x256, .f32⟩
  | .hbm, ⟨58, _⟩ => ⟨S_, .f32⟩
  | .hbm, ⟨59, _⟩ => ⟨S32x1024, .f32⟩
  | .hbm, ⟨60, _⟩ => ⟨S32x1024x1, .f32⟩
  | .hbm, ⟨61, _⟩ => ⟨S_, .f32⟩
  | .hbm, ⟨62, _⟩ => ⟨S32x1024x1, .f32⟩
  | .hbm, ⟨63, _⟩ => ⟨S32x1024x1, .f32⟩
  | .hbm, ⟨64, _⟩ => ⟨S32x1024x256, .f32⟩
  | .hbm, ⟨65, _⟩ => ⟨S32x1024x256, .f32⟩
  | .hbm, ⟨66, _⟩ => ⟨S32x1024x256, .f32⟩
  | .hbm, ⟨67, _⟩ => ⟨S_, .f32⟩
  | .hbm, ⟨68, _⟩ => ⟨S32x1024, .f32⟩
  | .hbm, ⟨69, _⟩ => ⟨S32x1024x1, .f32⟩
  | .hbm, ⟨70, _⟩ => ⟨S_, .f32⟩
  | .hbm, ⟨71, _⟩ => ⟨S32x1024x1, .f32⟩
  | .hbm, ⟨72, _⟩ => ⟨S32x1024x1, .f32⟩
  | .hbm, ⟨73, _⟩ => ⟨S32x1024x256, .f32⟩
  | .hbm, ⟨74, _⟩ => ⟨S32x1024x256, .f32⟩
  | .hbm, ⟨75, _⟩ => ⟨S_, .f32⟩
  | .hbm, ⟨76, _⟩ => ⟨S32x1024x1, .f32⟩
  | .hbm, ⟨77, _⟩ => ⟨S32x1024x1, .f32⟩
  | .hbm, ⟨78, _⟩ => ⟨S32x1024x1, .f32⟩
  | .hbm, ⟨79, _⟩ => ⟨S32x1024x256, .f32⟩
  | .hbm, ⟨80, _⟩ => ⟨S32x1024x256, .f32⟩
  | .hbm, ⟨81, _⟩ => ⟨S1x1x256, .f32⟩
  | .hbm, ⟨82, _⟩ => ⟨S32x1024x256, .f32⟩
  | .hbm, ⟨83, _⟩ => ⟨S32x1024x256, .f32⟩
  | .hbm, ⟨84, _⟩ => ⟨S1x1x256, .f32⟩
  | .hbm, ⟨85, _⟩ => ⟨S32x1024x256, .f32⟩
  | .hbm, ⟨86, _⟩ => ⟨S32x1024x256, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]

class Facts₀ : Prop where
  reducesTo_S32x1024x256_S32x1024_d2 : S32x1024x256.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x256_0_1_2 : S32x1024x1.BroadcastsInDim S32x1024x256 (![0, 1, 2] : Fin 3 → Fin S32x1024x256.rank)
  reducesTo_S32x1024x1024_S32x1024_d2 : S32x1024x1024.ReducesTo [2] S32x1024
  bcast_S32x1024x1_S32x1024x1024_0_1_2 : S32x1024x1.BroadcastsInDim S32x1024x1024 (![0, 1, 2] : Fin 3 → Fin S32x1024x1024.rank)
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  bcast_S256_S1x1x256_2 : S256.BroadcastsInDim S1x1x256 (![2] : Fin 1 → Fin S1x1x256.rank)
  bcast_S1x1x256_S32x1024x256_0_1_2 : S1x1x256.BroadcastsInDim S32x1024x256 (![0, 1, 2] : Fin 3 → Fin S32x1024x256.rank)
  dot_S32x1024x256_S32x1024x256_S32x1024x1024_2_2_1_1_0_0_wf : DotDims.WF S32x1024x256 S32x1024x256 S32x1024x1024 [2] [2] [1] [1] [0] [0]
  dot_S32x1024x1024_S32x1024x256_S32x1024x256_2_1_1_2_0_0_wf : DotDims.WF S32x1024x1024 S32x1024x256 S32x1024x256 [2] [1] [1] [2] [0] [0]

variable [Facts₀]

def dot_S32x1024x256_S32x1024x256_S32x1024x1024_2_2_1_1_0_0 : DotDims S32x1024x256 S32x1024x256 S32x1024x1024 where
  lhsContracting := [2]
  rhsContracting := [2]
  lhsNonContracting := [1]
  rhsNonContracting := [1]
  lhsBatch := [0]
  rhsBatch := [0]
  wf := dot_S32x1024x256_S32x1024x256_S32x1024x1024_2_2_1_1_0_0_wf
def dot_S32x1024x1024_S32x1024x256_S32x1024x256_2_1_1_2_0_0 : DotDims S32x1024x1024 S32x1024x256 S32x1024x256 where
  lhsContracting := [2]
  rhsContracting := [1]
  lhsNonContracting := [1]
  rhsNonContracting := [2]
  lhsBatch := [0]
  rhsBatch := [0]
  wf := dot_S32x1024x1024_S32x1024x256_S32x1024x256_2_1_1_2_0_0_wf

class Facts : Prop extends Facts₀ where

variable [Facts]
-- ==== Proof.LibRowOps.lean ====
/-
  Row operations on a two-axis array, read at one entry.

  A matrix with `a` rows and `b` columns meets four operations whenever a quantity is computed per row and
  spread back over the row: the sum of a row (a reduction along the second axis), the column of per-row
  values viewed as an `a × 1` matrix, that column spread across the `b` columns, and a product of two matrices
  that contracts the second axis of both (each entry is the inner product of a row of the left operand
  with a row of the right one).  Each lemma says what the result holds at row `r` and column `c`.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

variable {α : Type}

/-- A vector of `a` entries viewed as an `a × 1` column holds entry `r` at `(r, 0)`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- An `a × 1` column spread over `b` columns holds, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the exact values the sum along the second axis, read at row `r`, is the sum of that row's entries. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax
  apply Fin.ext
  match ax with
  | ⟨0, _⟩ => rfl
  | ⟨1, _⟩ => rfl

/-- `(l · rᵀ)[p, j] = ∑ k, l[p,k] · r[j,k]`: a product into the zero accumulator that contracts the second axis
    of both operands, so that its left operand index at output `i` and contraction position `q` is `(i 0, q)`
    and its right operand index is `(i 1, q)`. -/
theorem matmul_rows_zero_apply {M K N : ℕ} {φ₁ φ₂ : FTy}
    (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (prec : Option ContractPrecision) (l : FVec Ideal ⟨2, ![M, K]⟩ φ₁) (r : FVec Ideal ⟨2, ![N, K]⟩ φ₂)
    (p : Fin M) (j : Fin N) :
    matmul D prec l r (constant (F := Ideal) ⟨2, ![M, N]⟩ .f32 0x00000000#32) (ix2 p j)
      = ∑ k : Fin K, l (ix2 p k) * r (ix2 j k) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

end Cert.LibRowOps

end
-- ==== Proof.Spec.lean ====
/-
  The function both programs compute, written once over plain rows.

  For one batch and one row `x` of the key array (256 entries), with `Q` and `Vm` the batch's query and value
  matrices (1024 rows of 256 entries each):

    * every row is scaled to unit length, `u(x)_d = x_d · rsqrt (max (∑ x²) ε)` with `ε` the f32 word of 1e-12;
    * the cosine row is `s_j = ∑_d u(x)_d · u(Q_j)_d`, one entry per query row;
    * a row `r` of length `n` is normalised as `(r_j − μ) · rsqrt (σ² + ε') · g_j + β_j`, where `μ = (∑ r) / n`,
      `σ² = (∑ (r − μ)²) / n`, `ε'` the f32 word of 1e-3, and the division is the exact one on the extended reals;
    * the normalised cosine row is mixed with the value matrix, `o_d = ∑_j a_j · Vm_{j,d}`;
    * the mixed row (length 256) is normalised again, with its own scale and shift.

  Everything is an extended real; a sum is a finite sum over `Fin n`; the words 1024.0 and 256.0 are kept as
  their f32 words, the same on both sides.
-/
import Idealize.ShloMosaic.PureOps.Ideal
import Idealize.ShloMosaic.Lib.ValueIdx

noncomputable section

open scoped BigOperators

namespace Cert.Spec

open Idealize.ShloMosaic Idealize.ShloMosaic.ValueIdx

/-- The sum of the squares of a row. -/
def sumSq {n : ℕ} (x : Fin n → EReal) : EReal := ∑ d : Fin n, x d * x d

/-- A row scaled to unit length: each entry times the reciprocal square root of the larger of the squared norm
    and the floor `ε` (the f32 word of 1e-12). -/
def unitRow {n : ℕ} (x : Fin n → EReal) (d : Fin n) : EReal :=
  x d * Ideal.rsqrt (max (sumSq x) (Ideal.ofBits .f32 0x2B8CBCCC#32))

/-- The cosines of one row against every row of a matrix: the inner products of the unit rows. -/
def cosRow {n m : ℕ} (x : Fin n → EReal) (Q : Fin m → Fin n → EReal) (j : Fin m) : EReal :=
  ∑ d : Fin n, unitRow x d * unitRow (Q j) d

/-- The mean of a row: its sum divided by the word `nw` of its length. -/
def rowMean {n : ℕ} (r : Fin n → EReal) (nw : EReal) : EReal := Ideal.div (∑ j : Fin n, r j) nw

/-- The variance of a row about its mean. -/
def rowVar {n : ℕ} (r : Fin n → EReal) (nw : EReal) : EReal :=
  Ideal.div (∑ j : Fin n, (r j - rowMean r nw) * (r j - rowMean r nw)) nw

/-- A row normalised to mean zero and unit variance (variance floor `ε'`, the f32 word of 1e-3), then scaled by
    `g` and shifted by `β`. -/
def lnRow {n : ℕ} (r : Fin n → EReal) (nw : EReal) (g β : Fin n → EReal) (j : Fin n) : EReal :=
  (r j - rowMean r nw) * Ideal.rsqrt (rowVar r nw + Ideal.ofBits .f32 0x3A83126F#32) * g j + β j

/-- A row of weights applied to a matrix: `o_d = ∑_j a_j · Vm_{j,d}`. -/
def mixRow {n m : ℕ} (a : Fin m → EReal) (Vm : Fin m → Fin n → EReal) (d : Fin n) : EReal :=
  ∑ j : Fin m, a j * Vm j d

/-- One output row: the cosine row, normalised over the 1024 queries, mixed with the values, normalised over the
    256 features. -/
def outRow (x : Fin 256 → EReal) (Q Vm : Fin 1024 → Fin 256 → EReal) (g1 b1 : Fin 1024 → EReal)
    (g2 b2 : Fin 256 → EReal) : Fin 256 → EReal :=
  lnRow (mixRow (lnRow (cosRow x Q) (Ideal.ofBits .f32 0x44800000#32) g1 b1) Vm)
    (Ideal.ofBits .f32 0x43800000#32) g2 b2

/-! ## Over the argument arrays -/

/-- Row `i` of batch `b` of a `[32, 1024, 256]` array. -/
def rowOf (X : (⟨3, ![32, 1024, 256]⟩ : Shape).Idx → EReal) (b : Fin 32) (i : Fin 1024) : Fin 256 → EReal :=
  fun d => X (ix3 b i d)

/-- Batch `b` of a `[32, 1024, 256]` array, as a matrix of 1024 rows. -/
def matOf (X : (⟨3, ![32, 1024, 256]⟩ : Shape).Idx → EReal) (b : Fin 32) : Fin 1024 → Fin 256 → EReal :=
  fun j d => X (ix3 b j d)

/-- A one-axis array as a function of its coordinate. -/
def vecOf {n : ℕ} (g : (⟨1, ![n]⟩ : Shape).Idx → EReal) : Fin n → EReal := fun j => g (ix1 j)

/-- The result at batch `b`, row `i`, feature `d`. -/
def outAt (K Q V : (⟨3, ![32, 1024, 256]⟩ : Shape).Idx → EReal) (g1 b1 : (⟨1, ![1024]⟩ : Shape).Idx → EReal)
    (g2 b2 : (⟨1, ![256]⟩ : Shape).Idx → EReal) (b : Fin 32) (i : Fin 1024) (d : Fin 256) : EReal :=
  outRow (rowOf K b i) (matOf Q b) (matOf V b) (vecOf g1) (vecOf b1) (vecOf g2) (vecOf b2) d

/-- The whole result array as one function of the seven argument arrays. -/
def out (K Q V : (⟨3, ![32, 1024, 256]⟩ : Shape).Idx → EReal) (g1 b1 : (⟨1, ![1024]⟩ : Shape).Idx → EReal)
    (g2 b2 : (⟨1, ![256]⟩ : Shape).Idx → EReal) : (⟨3, ![32, 1024, 256]⟩ : Shape).Idx → EReal :=
  fun y => outAt K Q V g1 b1 g2 b2 (y 0) (y 1) (y 2)

theorem out_ix3 (K Q V : (⟨3, ![32, 1024, 256]⟩ : Shape).Idx → EReal) (g1 b1 : (⟨1, ![1024]⟩ : Shape).Idx → EReal)
    (g2 b2 : (⟨1, ![256]⟩ : Shape).Idx → EReal) (b : Fin 32) (i : Fin 1024) (d : Fin 256) :
    out K Q V g1 b1 g2 b2 (ix3 b i d) = outAt K Q V g1 b1 g2 b2 b i d := rfl

end Cert.Spec

end
-- ==== Proof.Rows.lean ====
/-
  The two per-row computations of the kernel body, as whole-matrix functions, and what they hold at one entry.

  `unitRows x` scales every row of an `a × b` matrix to unit length; `lnRows x nw g β` normalises every row to
  mean zero and unit variance and then scales and shifts it column by column.  Both are written exactly as the
  body applies them — a sum along the rows' axis, the column of per-row values, that column spread back over
  the columns, and pointwise arithmetic — so that a stretch of the body IS one of them.  Read at row `r` and
  column `c` at the exact values they are the row functions of the specification applied to row `r`.
-/
import proofs.«174450_j32263794328371_2_alg».proof.Proof.LibRowOps
import proofs.«174450_j32263794328371_2_alg».proof.Proof.Spec
import Idealize.ShloMosaic.Lib.ValueLayout

noncomputable section

open scoped BigOperators

namespace Cert.Rows

open Idealize.ShloMosaic Idealize.ShloMosaic.ValueIdx

section Defs

variable {F : FTy → Type} [FloatOps F] {a b : ℕ}

/-- Every row times the reciprocal square root of the larger of its squared norm and the floor. -/
def unitRows (x : FVec F ⟨2, ![a, b]⟩ .f32) (hred : (⟨2, ![a, b]⟩ : Shape).Reduces [1] ⟨1, ![a]⟩)
    (hcol : (⟨1, ![a]⟩ : Shape).ShapeCasts ⟨2, ![a, 1]⟩) (hbc : (⟨2, ![a, 1]⟩ : Shape).Broadcasts ⟨2, ![a, b]⟩) :
    FVec F ⟨2, ![a, b]⟩ .f32 :=
  mulf x (broadcastTo ⟨2, ![a, b]⟩ (rsqrt (maximumf
    (shapeCast ⟨2, ![a, 1]⟩ (multiReduction .add [1] ⟨1, ![a]⟩ (mulf x x) 0x00000000#32 hred (.inl rfl) rfl) hcol)
    (broadcast ⟨2, ![a, 1]⟩ (Scalar.ofBits .f32 0x2B8CBCCC#32)))) hbc)

/-- The column of row means: each row's sum divided by the word `nw`. -/
def meanCol (x : FVec F ⟨2, ![a, b]⟩ .f32) (nw : BitVec 32) (hred : (⟨2, ![a, b]⟩ : Shape).Reduces [1] ⟨1, ![a]⟩)
    (hcol : (⟨1, ![a]⟩ : Shape).ShapeCasts ⟨2, ![a, 1]⟩) : FVec F ⟨2, ![a, 1]⟩ .f32 :=
  divf (shapeCast ⟨2, ![a, 1]⟩ (multiReduction .add [1] ⟨1, ![a]⟩ x 0x00000000#32 hred (.inl rfl) rfl) hcol)
    (broadcast ⟨2, ![a, 1]⟩ (Scalar.ofBits .f32 nw))

/-- The matrix with each row's mean taken off. -/
def centred (x : FVec F ⟨2, ![a, b]⟩ .f32) (nw : BitVec 32) (hred : (⟨2, ![a, b]⟩ : Shape).Reduces [1] ⟨1, ![a]⟩)
    (hcol : (⟨1, ![a]⟩ : Shape).ShapeCasts ⟨2, ![a, 1]⟩) (hbc : (⟨2, ![a, 1]⟩ : Shape).Broadcasts ⟨2, ![a, b]⟩) :
    FVec F ⟨2, ![a, b]⟩ .f32 :=
  subf x (broadcastTo ⟨2, ![a, b]⟩ (meanCol x nw hred hcol) hbc)

/-- Per row, the sum of the squared deviations from the mean. -/
def sqDev (x : FVec F ⟨2, ![a, b]⟩ .f32) (nw : BitVec 32) (hred : (⟨2, ![a, b]⟩ : Shape).Reduces [1] ⟨1, ![a]⟩)
    (hcol : (⟨1, ![a]⟩ : Shape).ShapeCasts ⟨2, ![a, 1]⟩) (hbc : (⟨2, ![a, 1]⟩ : Shape).Broadcasts ⟨2, ![a, b]⟩) :
    FVec F ⟨1, ![a]⟩ .f32 :=
  multiReduction .add [1] ⟨1, ![a]⟩ (mulf (centred x nw hred hcol hbc) (centred x nw hred hcol hbc)) 0x00000000#32 hred
    (.inl rfl) rfl

/-- The column of row variances. -/
def varCol (x : FVec F ⟨2, ![a, b]⟩ .f32) (nw : BitVec 32) (hred : (⟨2, ![a, b]⟩ : Shape).Reduces [1] ⟨1, ![a]⟩)
    (hcol : (⟨1, ![a]⟩ : Shape).ShapeCasts ⟨2, ![a, 1]⟩) (hbc : (⟨2, ![a, 1]⟩ : Shape).Broadcasts ⟨2, ![a, b]⟩) :
    FVec F ⟨2, ![a, 1]⟩ .f32 :=
  divf (shapeCast ⟨2, ![a, 1]⟩ (sqDev x nw hred hcol hbc) hcol) (broadcast ⟨2, ![a, 1]⟩ (Scalar.ofBits .f32 nw))

/-- Every row normalised, then scaled by the row vector `g` and shifted by the row vector `β`. -/
def lnRows (x : FVec F ⟨2, ![a, b]⟩ .f32) (nw : BitVec 32) (g β : FVec F ⟨2, ![1, b]⟩ .f32)
    (hred : (⟨2, ![a, b]⟩ : Shape).Reduces [1] ⟨1, ![a]⟩) (hcol : (⟨1, ![a]⟩ : Shape).ShapeCasts ⟨2, ![a, 1]⟩)
    (hbc : (⟨2, ![a, 1]⟩ : Shape).Broadcasts ⟨2, ![a, b]⟩) (hrow : (⟨2, ![1, b]⟩ : Shape).Broadcasts ⟨2, ![a, b]⟩) :
    FVec F ⟨2, ![a, b]⟩ .f32 :=
  addf (mulf (mulf (centred x nw hred hcol hbc)
      (broadcastTo ⟨2, ![a, b]⟩ (rsqrt (addf (varCol x nw hred hcol hbc)
        (broadcast ⟨2, ![a, 1]⟩ (Scalar.ofBits .f32 0x3A83126F#32)))) hbc))
      (broadcastTo ⟨2, ![a, b]⟩ g hrow))
    (broadcastTo ⟨2, ![a, b]⟩ β hrow)

end Defs

/-! ## Read at one entry, at the exact values -/

variable {a b : ℕ}

/-- Row `r` of a matrix as a function of the column. -/
def row (x : FVec Ideal ⟨2, ![a, b]⟩ .f32) (r : Fin a) : Fin b → EReal := fun c => x (ix2 r c)

theorem unitRows_apply (x : FVec Ideal ⟨2, ![a, b]⟩ .f32) (hred : (⟨2, ![a, b]⟩ : Shape).Reduces [1] ⟨1, ![a]⟩)
    (hcol : (⟨1, ![a]⟩ : Shape).ShapeCasts ⟨2, ![a, 1]⟩) (hbc : (⟨2, ![a, 1]⟩ : Shape).Broadcasts ⟨2, ![a, b]⟩)
    (r : Fin a) (c : Fin b) :
    unitRows x hred hcol hbc (ix2 r c) = Cert.Spec.unitRow (row x r) c := by
  unfold unitRows Cert.Spec.unitRow Cert.Spec.sumSq row
  refine congrArg (x (ix2 r c) * ·) ?_
  refine (LibRowOps.broadcastTo_a1_ab_apply _ hbc r c).trans ?_
  refine congrArg (fun s => Ideal.rsqrt (max s (Ideal.ofBits .f32 0x2B8CBCCC#32))) ?_
  refine (LibRowOps.shapeCast_a_a1_apply _ hcol r 0).trans ?_
  exact LibRowOps.rowSum_apply _ hred _ _ r

theorem meanCol_apply (x : FVec Ideal ⟨2, ![a, b]⟩ .f32) (nw : BitVec 32)
    (hred : (⟨2, ![a, b]⟩ : Shape).Reduces [1] ⟨1, ![a]⟩) (hcol : (⟨1, ![a]⟩ : Shape).ShapeCasts ⟨2, ![a, 1]⟩)
    (r : Fin a) (u : Fin 1) :
    meanCol x nw hred hcol (ix2 r u) = Cert.Spec.rowMean (row x r) (Ideal.ofBits .f32 nw) := by
  unfold meanCol Cert.Spec.rowMean row
  refine congrArg (fun s => Ideal.div s (Ideal.ofBits .f32 nw)) ?_
  refine (LibRowOps.shapeCast_a_a1_apply _ hcol r u).trans ?_
  exact LibRowOps.rowSum_apply _ hred _ _ r

theorem centred_apply (x : FVec Ideal ⟨2, ![a, b]⟩ .f32) (nw : BitVec 32)
    (hred : (⟨2, ![a, b]⟩ : Shape).Reduces [1] ⟨1, ![a]⟩) (hcol : (⟨1, ![a]⟩ : Shape).ShapeCasts ⟨2, ![a, 1]⟩)
    (hbc : (⟨2, ![a, 1]⟩ : Shape).Broadcasts ⟨2, ![a, b]⟩) (r : Fin a) (c : Fin b) :
    centred x nw hred hcol hbc (ix2 r c) = x (ix2 r c) - Cert.Spec.rowMean (row x r) (Ideal.ofBits .f32 nw) := by
  unfold centred
  refine congrArg (x (ix2 r c) - ·) ?_
  exact (LibRowOps.broadcastTo_a1_ab_apply _ hbc r c).trans (meanCol_apply x nw hred hcol r 0)

theorem varCol_apply (x : FVec Ideal ⟨2, ![a, b]⟩ .f32) (nw : BitVec 32)
    (hred : (⟨2, ![a, b]⟩ : Shape).Reduces [1] ⟨1, ![a]⟩) (hcol : (⟨1, ![a]⟩ : Shape).ShapeCasts ⟨2, ![a, 1]⟩)
    (hbc : (⟨2, ![a, 1]⟩ : Shape).Broadcasts ⟨2, ![a, b]⟩) (r : Fin a) (u : Fin 1) :
    varCol x nw hred hcol hbc (ix2 r u) = Cert.Spec.rowVar (row x r) (Ideal.ofBits .f32 nw) := by
  unfold varCol sqDev Cert.Spec.rowVar
  refine congrArg (fun s => Ideal.div s (Ideal.ofBits .f32 nw)) ?_
  refine (LibRowOps.shapeCast_a_a1_apply _ hcol r u).trans ?_
  refine (LibRowOps.rowSum_apply _ hred _ _ r).trans ?_
  refine Finset.sum_congr rfl fun k _ => ?_
  show centred x nw hred hcol hbc (ix2 r k) * centred x nw hred hcol hbc (ix2 r k) = _
  rw [centred_apply]
  rfl

theorem lnRows_apply (x : FVec Ideal ⟨2, ![a, b]⟩ .f32) (nw : BitVec 32) (g β : FVec Ideal ⟨2, ![1, b]⟩ .f32)
    (hred : (⟨2, ![a, b]⟩ : Shape).Reduces [1] ⟨1, ![a]⟩) (hcol : (⟨1, ![a]⟩ : Shape).ShapeCasts ⟨2, ![a, 1]⟩)
    (hbc : (⟨2, ![a, 1]⟩ : Shape).Broadcasts ⟨2, ![a, b]⟩) (hrow : (⟨2, ![1, b]⟩ : Shape).Broadcasts ⟨2, ![a, b]⟩)
    (r : Fin a) (c : Fin b) :
    lnRows x nw g β hred hcol hbc hrow (ix2 r c)
      = Cert.Spec.lnRow (row x r) (Ideal.ofBits .f32 nw) (fun j => g (ix2 (0 : Fin 1) j)) (fun j => β (ix2 (0 : Fin 1) j)) c := by
  unfold lnRows Cert.Spec.lnRow
  show centred x nw hred hcol hbc (ix2 r c)
      * broadcastTo ⟨2, ![a, b]⟩ (rsqrt (addf (varCol x nw hred hcol hbc)
          (broadcast ⟨2, ![a, 1]⟩ (Scalar.ofBits .f32 0x3A83126F#32)))) hbc (ix2 r c)
      * broadcastTo ⟨2, ![a, b]⟩ g hrow (ix2 r c) + broadcastTo ⟨2, ![a, b]⟩ β hrow (ix2 r c) = _
  rw [centred_apply, LibRowOps.broadcastTo_a1_ab_apply, broadcastTo_1b_ab_apply, broadcastTo_1b_ab_apply]
  show (x (ix2 r c) - _) * Ideal.rsqrt (varCol x nw hred hcol hbc (ix2 r 0) + Ideal.ofBits .f32 0x3A83126F#32) * _ + _ = _
  rw [varCol_apply]
  rfl

end Cert.Rows

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.Tile.lean ====
/-
  One slab of 256 key rows through the body.

  The body handles the 1024 key rows of a batch in four slabs of 256 rows, each by the same computation:
  scale the slab's rows to unit length, take their inner products with the 1024 unit query rows (a product
  contracting the feature axis of both), normalise each row of that 256 × 1024 matrix, multiply by the
  1024 × 256 value matrix, normalise each row of the 256 × 256 result.  `tile` is that computation as one function
  of the slab; the four stores' values are this function of the four slabs (the body's text cuts each slab's
  computation at different places, but the operations are the same in the same order), and read at row `r` and
  feature `d` at the exact values it is the specification's output row of the slab's row `r`.
-/
import proofs.«174450_j32263794328371_2_alg».proof.Proof.Gen.KernelIdeal.Skeleton
import proofs.«174450_j32263794328371_2_alg».proof.Proof.Rows
import proofs.«174450_j32263794328371_2_alg».proof.Proof.LibMatmulRows

noncomputable section

open scoped BigOperators

namespace Cert.KernelIdeal.Tile

open Cert.KernelIdeal Cert.KernelIdeal.Gen Idealize.ShloMosaic Idealize.ShloMosaic.ValueIdx

section Defs

variable {F : FTy → Type} [FloatOps F]

/-- The unit rows of a matrix staged as a one-batch block (the 1024 query rows, or a slab of 256 key rows). -/
def qryUnit (x : Vec F S1x1024x256 .f32) : FVec F S1024x256 .bf16 :=
  truncf .bf16 (Rows.unitRows (shapeCast S1024x256 x shapeCasts_S1x1024x256_S1024x256) reduces_S1024x256_S1024
    shapeCasts_S1024_S1024x1 broadcasts_S1024x1_S1024x256) bitsLt_bf16_f32

def keyUnit (kt : Vec F S1x256x256 .f32) : FVec F S256x256 .bf16 :=
  truncf .bf16 (Rows.unitRows (shapeCast S256x256 kt shapeCasts_S1x256x256_S256x256) reduces_S256x256_S256
    shapeCasts_S256_S256x1 broadcasts_S256x1_S256x256) bitsLt_bf16_f32

/-- The value matrix of the batch. -/
def valMat (x : Vec F S1x1024x256 .f32) : FVec F S1024x256 .bf16 :=
  truncf .bf16 (shapeCast S1024x256 x shapeCasts_S1x1024x256_S1024x256) bitsLt_bf16_f32

/-- The slab's cosines against every query row. -/
def cosTile (ku : FVec F S256x256 .bf16) (qn : FVec F S1024x256 .bf16) : FVec F S256x1024 .f32 :=
  matmul dot_S256x256_S1024x256_S256x1024_1_1_0_0_n_n none ku qn (constant S256x1024 .f32 0x00000000#32)

/-- Its rows normalised over the 1024 queries. -/
def ln1 (M : FVec F S256x1024 .f32) (g1 b1 : FVec F S1x1024 .f32) : FVec F S256x1024 .f32 :=
  Rows.lnRows M 0x44800000#32 g1 b1 reduces_S256x1024_S256 shapeCasts_S256_S256x1 broadcasts_S256x1_S256x1024
    broadcasts_S1x1024_S256x1024

/-- The normalised cosines applied to the value matrix. -/
def mixTile (L : FVec F S256x1024 .f32) (vb : FVec F S1024x256 .bf16) : FVec F S256x256 .f32 :=
  matmul dot_S256x1024_S1024x256_S256x256_1_0_0_1_n_n none (truncf .bf16 L bitsLt_bf16_f32) vb
    (constant S256x256 .f32 0x00000000#32)

/-- Its rows normalised over the 256 features. -/
def ln2 (O : FVec F S256x256 .f32) (g2 b2 : FVec F S1x256 .f32) : FVec F S256x256 .f32 :=
  Rows.lnRows O 0x43800000#32 g2 b2 reduces_S256x256_S256 shapeCasts_S256_S256x1 broadcasts_S256x1_S256x256
    broadcasts_S1x256_S256x256

/-- The slab's 256 output rows, as the one-batch block the body stores. -/
def tile (qn vb : FVec F S1024x256 .bf16) (g1 b1 : FVec F S1x1024 .f32) (g2 b2 : FVec F S1x256 .f32)
    (kt : Vec F S1x256x256 .f32) : FVec F S1x256x256 .f32 :=
  shapeCast S1x256x256 (ln2 (mixTile (ln1 (cosTile (keyUnit kt) qn) g1 b1) vb) g2 b2) shapeCasts_S256x256_S1x256x256

/-! ### The body's values are these functions -/

theorem pay2_eq (x : Vec F S1x1024x256 .f32) : k0_pay2 x = qryUnit x := rfl
theorem pay3_eq (x : Vec F S1x1024x256 .f32) : k0_pay3 x = valMat x := rfl

theorem store0_eq (qn vb : FVec F S1024x256 .bf16) (g1 b1 : FVec F S1x1024 .f32) (g2 b2 : FVec F S1x256 .f32)
    (kt : Vec F S1x256x256 .f32) :
    k0_pay10 (k0_pay9 qn vb g1 b1 g2 b2 (k0_pay8 kt) (constant S256x1024 .f32 0x00000000#32)) = tile qn vb g1 b1 g2 b2 kt := rfl

theorem store1_eq (qn vb : FVec F S1024x256 .bf16) (g1 b1 : FVec F S1x1024 .f32) (g2 b2 : FVec F S1x256 .f32)
    (kt : Vec F S1x256x256 .f32) :
    k0_pay13 g2 b2 (k0_pay11 qn vb g1 b1 kt) (k0_pay12 qn vb g1 b1 kt) = tile qn vb g1 b1 g2 b2 kt := rfl

theorem store2_eq (qn vb : FVec F S1024x256 .bf16) (g1 b1 : FVec F S1x1024 .f32) (g2 b2 : FVec F S1x256 .f32)
    (kt : Vec F S1x256x256 .f32) :
    k0_pay17 vb g1 b1 g2 b2 (k0_pay14 qn kt) (k0_pay15 qn kt) (k0_pay16 qn kt) = tile qn vb g1 b1 g2 b2 kt := rfl

theorem store3_eq (qn vb : FVec F S1024x256 .bf16) (g1 b1 : FVec F S1x1024 .f32) (g2 b2 : FVec F S1x256 .f32)
    (kt : Vec F S1x256x256 .f32) :
    k0_pay1 g2 b2 (k0_pay18 qn vb g1 b1 kt) (k0_pay19 qn vb g1 b1 kt) (k0_pay20 qn vb g1 b1 kt) = tile qn vb g1 b1 g2 b2 kt := rfl

end Defs

end Cert.KernelIdeal.Tile

end
-- ==== Proof.TileValue.lean ====
/-
  The slab function read at one entry, at the exact values.

  Rounding to the narrower format is the identity there, a product into the zero accumulator is the plain sum of
  products over the contracted axis, and the per-row stretches are the specification's row functions
  (`Rows.unitRows_apply`, `Rows.lnRows_apply`).  So the slab's output at row `r`, feature `d` is the
  specification's output row of the slab's key row `r` against the batch's query and value matrices.
-/
import proofs.«174450_j32263794328371_2_alg».proof.Proof.Tile

noncomputable section

open scoped BigOperators

namespace Cert.KernelIdeal.Tile

open Cert.KernelIdeal Cert.KernelIdeal.Gen Idealize.ShloMosaic Idealize.ShloMosaic.ValueIdx

/-! ### The two products' operand coordinates -/

theorem cos_l0 (i : S256x1024.Idx) (q : dot_S256x256_S1024x256_S256x1024_1_1_0_0_n_n.contr.Idx) : (dot_S256x256_S1024x256_S256x1024_1_1_0_0_n_n.lhsIdx i q 0).val = (i 0).val := by
  unfold DotDims.lhsIdx
  rw [dif_neg (show ¬(0 : Fin S256x256.rank) ∈ dot_S256x256_S1024x256_S256x1024_1_1_0_0_n_n.lhsBatch by decide),
    dif_pos (show (0 : Fin S256x256.rank) ∈ dot_S256x256_S1024x256_S256x1024_1_1_0_0_n_n.lhsNonContracting by decide)]
  rfl
theorem cos_l1 (i : S256x1024.Idx) (q : dot_S256x256_S1024x256_S256x1024_1_1_0_0_n_n.contr.Idx) : (dot_S256x256_S1024x256_S256x1024_1_1_0_0_n_n.lhsIdx i q 1).val = (q ⟨0, by decide⟩).val :=
  dot_S256x256_S1024x256_S256x1024_1_1_0_0_n_n.lhsIdx_val_of_single rfl i q
theorem cos_r0 (i : S256x1024.Idx) (q : dot_S256x256_S1024x256_S256x1024_1_1_0_0_n_n.contr.Idx) : (dot_S256x256_S1024x256_S256x1024_1_1_0_0_n_n.rhsIdx i q 0).val = (i 1).val := by
  unfold DotDims.rhsIdx
  rw [dif_neg (show ¬(0 : Fin S1024x256.rank) ∈ dot_S256x256_S1024x256_S256x1024_1_1_0_0_n_n.rhsBatch by decide),
    dif_pos (show (0 : Fin S1024x256.rank) ∈ dot_S256x256_S1024x256_S256x1024_1_1_0_0_n_n.rhsNonContracting by decide)]
  rfl
theorem cos_r1 (i : S256x1024.Idx) (q : dot_S256x256_S1024x256_S256x1024_1_1_0_0_n_n.contr.Idx) : (dot_S256x256_S1024x256_S256x1024_1_1_0_0_n_n.rhsIdx i q 1).val = (q ⟨0, by decide⟩).val :=
  dot_S256x256_S1024x256_S256x1024_1_1_0_0_n_n.rhsIdx_val_of_single rfl i q

theorem mix_l0 (i : S256x256.Idx) (q : dot_S256x1024_S1024x256_S256x256_1_0_0_1_n_n.contr.Idx) : (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide),
    dif_pos (show (0 : Fin S256x1024.rank) ∈ dot_S256x1024_S1024x256_S256x256_1_0_0_1_n_n.lhsNonContracting by decide)]
  rfl
theorem mix_l1 (i : S256x256.Idx) (q : dot_S256x1024_S1024x256_S256x256_1_0_0_1_n_n.contr.Idx) : (dot_S256x1024_S1024x256_S256x256_1_0_0_1_n_n.lhsIdx i q 1).val = (q ⟨0, by decide⟩).val :=
  dot_S256x1024_S1024x256_S256x256_1_0_0_1_n_n.lhsIdx_val_of_single rfl i q
theorem mix_r0 (i : S256x256.Idx) (q : dot_S256x1024_S1024x256_S256x256_1_0_0_1_n_n.contr.Idx) : (dot_S256x1024_S1024x256_S256x256_1_0_0_1_n_n.rhsIdx i q 0).val = (q ⟨0, by decide⟩).val :=
  dot_S256x1024_S1024x256_S256x256_1_0_0_1_n_n.rhsIdx_val_of_single rfl i q
theorem mix_r1 (i : S256x256.Idx) (q : dot_S256x1024_S1024x256_S256x256_1_0_0_1_n_n.contr.Idx) : (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide),
    dif_pos (show (1 : Fin S1024x256.rank) ∈ dot_S256x1024_S1024x256_S256x256_1_0_0_1_n_n.rhsNonContracting by decide)]
  rfl

/-! ### Each stage at an entry -/

/-- The slab's cosines: the inner product of row `r` of the left operand with row `j` of the right one. -/
theorem cosTile_apply (ku : FVec Ideal S256x256 .bf16) (qn : FVec Ideal S1024x256 .bf16) (r : Fin 256) (j : Fin 1024) :
    cosTile ku qn (ix2 r j) = ∑ e : Fin 256, ku (ix2 r e) * qn (ix2 j e) :=
  LibRowOps.matmul_rows_zero_apply dot_S256x256_S1024x256_S256x1024_1_1_0_0_n_n rfl rfl cos_l0 cos_l1 cos_r0 cos_r1 none ku qn r j

/-- The mixing product: row `r` of the weights against column `d` of the values. -/
theorem mixTile_apply (L : FVec Ideal S256x1024 .f32) (vb : FVec Ideal S1024x256 .bf16) (r : Fin 256) (d : Fin 256) :
    mixTile L vb (ix2 r d) = ∑ j : Fin 1024, L (ix2 r j) * vb (ix2 j d) :=
  Cert.LibMatmulRows.matmul_zero_apply dot_S256x1024_S1024x256_S256x256_1_0_0_1_n_n rfl rfl mix_l0 mix_l1 mix_r0 mix_r1 none (truncf .bf16 L bitsLt_bf16_f32) vb r d

theorem keyUnit_apply (kt : Vec Ideal S1x256x256 .f32) (r e : Fin 256) :
    keyUnit kt (ix2 r e) = Cert.Spec.unitRow (fun e' => kt (ix3 (0 : Fin 1) r e')) e := by
  unfold keyUnit
  refine (Rows.unitRows_apply _ _ _ _ r e).trans ?_
  refine congrArg (fun row => Cert.Spec.unitRow row e) ?_
  funext e'
  exact shapeCast_1ab_ab_apply kt shapeCasts_S1x256x256_S256x256 r e'

theorem qryUnit_apply (x : Vec Ideal S1x1024x256 .f32) (j : Fin 1024) (e : Fin 256) :
    qryUnit x (ix2 j e) = Cert.Spec.unitRow (fun e' => x (ix3 (0 : Fin 1) j e')) e := by
  unfold qryUnit
  refine (Rows.unitRows_apply _ _ _ _ j e).trans ?_
  refine congrArg (fun row => Cert.Spec.unitRow row e) ?_
  funext e'
  exact shapeCast_1ab_ab_apply x shapeCasts_S1x1024x256_S1024x256 j e'

theorem valMat_apply (x : Vec Ideal S1x1024x256 .f32) (j : Fin 1024) (e : Fin 256) :
    valMat x (ix2 j e) = x (ix3 (0 : Fin 1) j e) :=
  shapeCast_1ab_ab_apply x shapeCasts_S1x1024x256_S1024x256 j e

/-- THE SLAB AT AN ENTRY: the specification's output row of the slab's key row `r`, at feature `d`. -/
theorem tile_apply (x1 x2 : Vec Ideal S1x1024x256 .f32) (g1 b1 : FVec Ideal S1x1024 .f32) (g2 b2 : FVec Ideal S1x256 .f32)
    (kt : Vec Ideal S1x256x256 .f32) (u : Fin 1) (r d : Fin 256) :
    tile (qryUnit x1) (valMat x2) g1 b1 g2 b2 kt (ix3 u r d)
      = Cert.Spec.outRow (fun e => kt (ix3 (0 : Fin 1) r e)) (fun j e => x1 (ix3 (0 : Fin 1) j e))
          (fun j e => x2 (ix3 (0 : Fin 1) j e)) (fun j => g1 (ix2 (0 : Fin 1) j)) (fun j => b1 (ix2 (0 : Fin 1) j))
          (fun j => g2 (ix2 (0 : Fin 1) j)) (fun j => b2 (ix2 (0 : Fin 1) j)) d := by
  unfold tile Cert.Spec.outRow
  refine (shapeCast_ab_1ab_apply _ shapeCasts_S256x256_S1x256x256 u r d).trans ?_
  unfold ln2
  refine (Rows.lnRows_apply _ _ g2 b2 _ _ _ _ r d).trans ?_
  refine congrArg (fun row => Cert.Spec.lnRow row _ _ _ d) ?_
  funext e
  refine (mixTile_apply _ _ r e).trans ?_
  unfold Cert.Spec.mixRow
  refine Finset.sum_congr rfl fun j _ => ?_
  refine congrArg₂ (· * ·) ?_ (valMat_apply x2 j e)
  unfold ln1
  refine (Rows.lnRows_apply _ _ g1 b1 _ _ _ _ r j).trans ?_
  refine congrArg (fun row => Cert.Spec.lnRow row _ _ _ j) ?_
  funext j'
  refine (cosTile_apply _ _ r j').trans ?_
  unfold Cert.Spec.cosRow
  refine Finset.sum_congr rfl fun e' _ => ?_
  exact congrArg₂ (· * ·) (keyUnit_apply kt r e') (qryUnit_apply x1 j' e')

end Cert.KernelIdeal.Tile

end
-- ==== Proof.KernelBlock.lean ====
/-
  What one grid point leaves in the output's staging block.

  The body writes the block in four stores, slab by slab (rows 0–255, 256–511, 512–767, 768–1023), each store's value
  the slab function of the corresponding 256 rows of the staged key block.  Every stored entry is therefore the
  same function of its position in the block: at row `i` and feature `d`, the specification's output row of key row
  `i` against the staged query and value blocks and the four staged scale and shift rows.  The four slabs tile the
  block, so the block as a whole is that one function.
-/
import proofs.«174450_j32263794328371_2_alg».proof.Proof.Gen.KernelIdeal.Frame
import proofs.«174450_j32263794328371_2_alg».proof.Proof.TileValue
import Idealize.ShloMosaic.Lib.Pipeline.Value
import Idealize.ShloMosaic.Lib.Tactic

set_option maxRecDepth 16384

noncomputable section

open scoped BigOperators

namespace Cert.KernelIdeal.Block

open Cert.KernelIdeal Cert.KernelIdeal.Gen Idealize.ShloMosaic Idealize.ShloMosaic.ValueIdx
open Idealize.ShloMosaic.TcCoe Idealize.ShloMosaic.Tactic Idealize.SL.Sem

/-- The block's entry at row `i`, feature `d`, from the seven staged blocks. -/
def blockOutAt (x0 x1 x2 : Vec Ideal S1x1024x256 .f32) (x3 x4 : Vec Ideal S1x1024 .f32) (x5 x6 : Vec Ideal S1x256 .f32)
    (i : Fin 1024) (d : Fin 256) : EReal :=
  Cert.Spec.outRow (fun e => x0 (ix3 (0 : Fin 1) i e)) (fun j e => x1 (ix3 (0 : Fin 1) j e))
    (fun j e => x2 (ix3 (0 : Fin 1) j e)) (fun j => x3 (ix2 (0 : Fin 1) j)) (fun j => x4 (ix2 (0 : Fin 1) j))
    (fun j => x5 (ix2 (0 : Fin 1) j)) (fun j => x6 (ix2 (0 : Fin 1) j)) d

/-- The whole block. -/
def blockOut (x0 x1 x2 : Vec Ideal S1x1024x256 .f32) (x3 x4 : Vec Ideal S1x1024 .f32) (x5 x6 : Vec Ideal S1x256 .f32) :
    Vec Ideal S1x1024x256 .f32 :=
  fun y => blockOutAt x0 x1 x2 x3 x4 x5 x6 (y 1) (y 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The slab of 256 rows starting at row `o`, computed from those rows of the key block, holds at each of its entries
    the block's entry at the corresponding position. -/
theorem slab_value (x0 x1 x2 : Vec Ideal S1x1024x256 .f32) (x3 x4 : Vec Ideal S1x1024 .f32) (x5 x6 : Vec Ideal S1x256 .f32)
    (o : ℕ) (inb : ∀ a, (![0, o, 0] : Fin 3 → ℕ) a + S1x256x256.size a ≤ S1x1024x256.size a) (x : S1x256x256.Idx) :
    Tile.tile (Tile.qryUnit x1) (Tile.valMat x2) x3 x4 x5 x6
        (View.ld x0 (Rect.unit (s := S1x1024x256) ![0, o, 0] S1x256x256.size inb)) x
      = blockOut x0 x1 x2 x3 x4 x5 x6 ((Rect.unit (s := S1x1024x256) ![0, o, 0] S1x256x256.size inb).emb x) := by
  obtain ⟨u, r, d, rfl⟩ : ∃ (u : Fin 1) (r d : Fin 256), x = ix3 u r d := ⟨x 0, x 1, x 2, eq_ix3 x⟩
  have h1 : o + 256 ≤ 1024 := inb 1
  have hlt : o + r.val < 1024 := by have := r.isLt; omega
  refine (Tile.tile_apply x1 x2 x3 x4 x5 x6 _ u r d).trans ?_
  have e1 : ((Rect.unit (s := S1x1024x256) ![0, o, 0] S1x256x256.size inb).emb (ix3 u r d)) 1 = (⟨o + r.val, hlt⟩ : Fin 1024) :=
    Fin.ext (by show o + 1 * r.val = o + r.val; omega)
  have e2 : ((Rect.unit (s := S1x1024x256) ![0, o, 0] S1x256x256.size inb).emb (ix3 u r d)) 2 = d :=
    Fin.ext (by show 0 + 1 * d.val = d.val; omega)
  refine Eq.trans ?_ (congrArg₂ (blockOutAt x0 x1 x2 x3 x4 x5 x6) e1 e2).symm
  unfold blockOutAt
  refine congrArg (fun row => Cert.Spec.outRow row _ _ _ _ _ _ d) ?_
  funext e
  show x0 ((Rect.unit (s := S1x1024x256) ![0, o, 0] S1x256x256.size inb).idx (ix3 (0 : Fin 1) r e)) = x0 (ix3 (0 : Fin 1) ⟨o + r.val, hlt⟩ e)
  refine congrArg x0 (funext fun a => Fin.ext ?_)
  match a with
  | ⟨0, _⟩ => show 0 + 1 * 0 = 0; rfl
  | ⟨1, _⟩ => show o + 1 * r.val = o + r.val; omega
  | ⟨2, _⟩ => show 0 + 1 * e.val = e.val; omega

theorem pay4_eq (x : Vec Ideal S1x1024 .f32) : k0_pay4 x = x := shapeCast_self _ _
theorem pay5_eq (x : Vec Ideal S1x1024 .f32) : k0_pay5 x = x := shapeCast_self _ _
theorem pay6_eq (x : Vec Ideal S1x256 .f32) : k0_pay6 x = x := shapeCast_self _ _
theorem pay7_eq (x : Vec Ideal S1x256 .f32) : k0_pay7 x = x := shapeCast_self _ _

/-- THE BLOCK after the body: one function of the seven staged blocks. -/
theorem out_block (c : Dev nD) (i : grid0.Coords) (arg1 : Memref sig .tc .vmem S1x1024x256 .f32) (harg1 : arg1.IsWhole) (arg2 : Memref sig .tc .vmem S1x1024x256 .f32) (harg2 : arg2.IsWhole) (arg3 : Memref sig .tc .vmem S1x1024x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1024x256 .f32) (harg8 : arg8.IsWhole) (x0 : Vec Ideal S1x1024x256 .f32) (x1 : Vec Ideal S1x1024x256 .f32) (x2 : Vec Ideal S1x1024x256 .f32) (x3 : Vec Ideal S1x1024 .f32) (x4 : Vec Ideal S1x1024 .f32) (x5 : Vec Ideal S1x256 .f32) (x6 : Vec Ideal S1x256 .f32) :
    out0_A_7 c i arg1 harg1 arg2 harg2 arg3 harg3 arg4 harg4 arg5 harg5 arg6 harg6 arg7 harg7 arg8 harg8 x0 x1 x2 x3 x4 x5 x6 = blockOut x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  funext y
  refine View.canon_apply_of_pieces (blockOut x0 x1 x2 x3 x4 x5 x6) _ ?_ y (cover0_A_7 c i arg1 harg1 arg2 harg2 arg3 harg3 arg4 harg4 arg5 harg5 arg6 harg6 arg7 harg7 arg8 harg8 x0 x1 x2 x3 x4 x5 x6 y)
  unfold kernelRun0_A
  dsimp only
  sl_unfold_words
  simp only [View.readAt_eq_ld, harg1.read_unread, harg2.read_unread, harg3.read_unread, harg4.read_unread,
    harg5.read_unread, harg6.read_unread, harg7.read_unread, View.ld_unit_zero (S := S1x1024x256) hz3,
    View.ld_unit_zero (S := S1x1024) hz2, View.ld_unit_zero (S := S1x256) hz2, pay4_eq, pay5_eq, pay6_eq, pay7_eq,
    Tile.pay2_eq, Tile.pay3_eq, Tile.store0_eq, Tile.store1_eq, Tile.store2_eq, Tile.store3_eq]
  intro p hp
  rcases List.mem_cons.mp hp with rfl | hp
  · intro x; exact slab_value x0 x1 x2 x3 x4 x5 x6 768 _ x
  rcases List.mem_cons.mp hp with rfl | hp
  · intro x; exact slab_value x0 x1 x2 x3 x4 x5 x6 512 _ x
  rcases List.mem_cons.mp hp with rfl | hp
  · intro x; exact slab_value x0 x1 x2 x3 x4 x5 x6 256 _ x
  rcases List.mem_cons.mp hp with rfl | hp
  · intro x; exact slab_value x0 x1 x2 x3 x4 x5 x6 0 _ x
  exact absurd hp List.not_mem_nil

end Cert.KernelIdeal.Block

end
-- ==== Proof.KernelArray.lean ====
/-
  From the blocks to the whole result array.

  Grid point `t` stages batch `t` of the key, query and value arrays and the four scale and shift rows (each a
  one-row view of its one-axis argument), and writes the output's staging block back as batch `t` of the result.
  What it writes back is the specification's result restricted to that batch, because every staged block is the
  corresponding part of an argument array; the 32 batches cover the result array, so after the run the array is the
  specification's result of the seven arguments.
-/
import proofs.«174450_j32263794328371_2_alg».proof.Proof.Gen.KernelIdeal.Value
import proofs.«174450_j32263794328371_2_alg».proof.Proof.KernelBlock
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.RunValue

open Cert.KernelIdeal Cert.KernelIdeal.Gen Cert.KernelIdeal.Value Idealize.ShloMosaic Idealize.ShloMosaic.ValueIdx
open Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The result array: the specification's function of the seven argument arrays. -/
def result (c : Dev nD) : Buf (Elt Ideal) ((c : Thread nD τ).loc main_v4) :=
  Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The printed index maps over the grid: the three batched inputs and the output are at block (t, 0, 0), the four
    rows at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-! ## The staged blocks are parts of the argument arrays -/

theorem read0 (c : Dev nD) (t : Fin cfg0.N) (tb : Fin 32) (htb : tb.val = t.val) (i : Fin 1024) (e : Fin 256) :
    iblk m c 0 t (ix3 (0 : Fin 1) i e) = (m ((c : Thread nD τ).loc main_arg0)) (ix3 tb i e) := by
  obtain ⟨f0, f1, f2, -⟩ := idx_facts t
  show V m c main_arg0 (((cfg0.win 0).blk t).view.emb (ix3 (0 : Fin 1) i e)) = _
  rw [V_main_arg0]
  refine congrArg _ (funext fun a => Fin.ext ?_)
  match a with
  | ⟨0, _⟩ => show win0_0.index t (0 : Fin 3) * 1 + 1 * 0 = tb.val; rw [f0]; omega
  | ⟨1, _⟩ => show win0_0.index t (1 : Fin 3) * 1024 + 1 * i.val = i.val; rw [f1]; omega
  | ⟨2, _⟩ => show win0_0.index t (2 : Fin 3) * 256 + 1 * e.val = e.val; rw [f2]; omega

theorem read1 (c : Dev nD) (t : Fin cfg0.N) (tb : Fin 32) (htb : tb.val = t.val) (i : Fin 1024) (e : Fin 256) :
    iblk m c 1 t (ix3 (0 : Fin 1) i e) = (m ((c : Thread nD τ).loc main_arg1)) (ix3 tb i e) := by
  obtain ⟨-, -, -, f0, f1, f2, -⟩ := idx_facts t
  show V m c main_arg1 (((cfg0.win 1).blk t).view.emb (ix3 (0 : Fin 1) i e)) = _
  rw [V_main_arg1]
  refine congrArg _ (funext fun a => Fin.ext ?_)
  match a with
  | ⟨0, _⟩ => show win0_1.index t (0 : Fin 3) * 1 + 1 * 0 = tb.val; rw [f0]; omega
  | ⟨1, _⟩ => show win0_1.index t (1 : Fin 3) * 1024 + 1 * i.val = i.val; rw [f1]; omega
  | ⟨2, _⟩ => show win0_1.index t (2 : Fin 3) * 256 + 1 * e.val = e.val; rw [f2]; omega

theorem read2 (c : Dev nD) (t : Fin cfg0.N) (tb : Fin 32) (htb : tb.val = t.val) (i : Fin 1024) (e : Fin 256) :
    iblk m c 2 t (ix3 (0 : Fin 1) i e) = (m ((c : Thread nD τ).loc main_arg2)) (ix3 tb i e) := by
  obtain ⟨-, -, -, -, -, -, f0, f1, f2, -⟩ := idx_facts t
  show V m c main_arg2 (((cfg0.win 2).blk t).view.emb (ix3 (0 : Fin 1) i e)) = _
  rw [V_main_arg2]
  refine congrArg _ (funext fun a => Fin.ext ?_)
  match a with
  | ⟨0, _⟩ => show win0_2.index t (0 : Fin 3) * 1 + 1 * 0 = tb.val; rw [f0]; omega
  | ⟨1, _⟩ => show win0_2.index t (1 : Fin 3) * 1024 + 1 * i.val = i.val; rw [f1]; omega
  | ⟨2, _⟩ => show win0_2.index t (2 : Fin 3) * 256 + 1 * e.val = e.val; rw [f2]; omega

/-- The four rows are the one-axis arguments viewed as one-row matrices before the region. -/
theorem V_v0 (c : Dev nD) : (V m c main_v0 : S1x1024.Idx → EReal) = shapeCast S1x1024 (m ((c : Thread nD τ).loc main_arg3)) shapeCasts_S1024_S1x1024 := by
  dsimp only [Gen.V, Gen.hostOps0]; after_results; rfl
theorem V_v1 (c : Dev nD) : (V m c main_v1 : S1x1024.Idx → EReal) = shapeCast S1x1024 (m ((c : Thread nD τ).loc main_arg4)) shapeCasts_S1024_S1x1024 := by
  dsimp only [Gen.V, Gen.hostOps0]; after_results; rfl
theorem V_v2 (c : Dev nD) : (V m c main_v2 : S1x256.Idx → EReal) = shapeCast S1x256 (m ((c : Thread nD τ).loc main_arg5)) shapeCasts_S256_S1x256 := by
  dsimp only [Gen.V, Gen.hostOps0]; after_results; rfl
theorem V_v3 (c : Dev nD) : (V m c main_v3 : S1x256.Idx → EReal) = shapeCast S1x256 (m ((c : Thread nD τ).loc main_arg6)) shapeCasts_S256_S1x256 := by
  dsimp only [Gen.V, Gen.hostOps0]; after_results; rfl

theorem read3 (c : Dev nD) (t : Fin cfg0.N) (j : Fin 1024) :
    iblk m c 3 t (ix2 (0 : Fin 1) j) = (m ((c : Thread nD τ).loc main_arg3)) (ix1 j) := by
  obtain ⟨-, -, -, -, -, -, -, -, -, f0, f1, -⟩ := idx_facts t
  show V m c main_v0 (((cfg0.win 3).blk t).view.emb (ix2 (0 : Fin 1) j)) = _
  rw [V_v0]
  refine Eq.trans (congrArg _ (funext fun a => Fin.ext ?_)) (shapeCast_a_1a_apply _ shapeCasts_S1024_S1x1024 (0 : Fin 1) j)
  match a with
  | ⟨0, _⟩ => show win0_3.index t (0 : Fin 2) * 1 + 1 * 0 = 0; rw [f0]
  | ⟨1, _⟩ => show win0_3.index t (1 : Fin 2) * 1024 + 1 * j.val = j.val; rw [f1]; omega

theorem read4 (c : Dev nD) (t : Fin cfg0.N) (j : Fin 1024) :
    iblk m c 4 t (ix2 (0 : Fin 1) j) = (m ((c : Thread nD τ).loc main_arg4)) (ix1 j) := by
  obtain ⟨-, -, -, -, -, -, -, -, -, -, -, f0, f1, -⟩ := idx_facts t
  show V m c main_v1 (((cfg0.win 4).blk t).view.emb (ix2 (0 : Fin 1) j)) = _
  rw [V_v1]
  refine Eq.trans (congrArg _ (funext fun a => Fin.ext ?_)) (shapeCast_a_1a_apply _ shapeCasts_S1024_S1x1024 (0 : Fin 1) j)
  match a with
  | ⟨0, _⟩ => show win0_4.index t (0 : Fin 2) * 1 + 1 * 0 = 0; rw [f0]
  | ⟨1, _⟩ => show win0_4.index t (1 : Fin 2) * 1024 + 1 * j.val = j.val; rw [f1]; omega

theorem read5 (c : Dev nD) (t : Fin cfg0.N) (j : Fin 256) :
    iblk m c 5 t (ix2 (0 : Fin 1) j) = (m ((c : Thread nD τ).loc main_arg5)) (ix1 j) := by
  obtain ⟨-, -, -, -, -, -, -, -, -, -, -, -, -, f0, f1, -⟩ := idx_facts t
  show V m c main_v2 (((cfg0.win 5).blk t).view.emb (ix2 (0 : Fin 1) j)) = _
  rw [V_v2]
  refine Eq.trans (congrArg _ (funext fun a => Fin.ext ?_)) (shapeCast_a_1a_apply _ shapeCasts_S256_S1x256 (0 : Fin 1) j)
  match a with
  | ⟨0, _⟩ => show win0_5.index t (0 : Fin 2) * 1 + 1 * 0 = 0; rw [f0]
  | ⟨1, _⟩ => show win0_5.index t (1 : Fin 2) * 256 + 1 * j.val = j.val; rw [f1]; omega

theorem read6 (c : Dev nD) (t : Fin cfg0.N) (j : Fin 256) :
    iblk m c 6 t (ix2 (0 : Fin 1) j) = (m ((c : Thread nD τ).loc main_arg6)) (ix1 j) := by
  obtain ⟨-, -, -, -, -, -, -, -, -, -, -, -, -, -, -, f0, f1, -⟩ := idx_facts t
  show V m c main_v3 (((cfg0.win 6).blk t).view.emb (ix2 (0 : Fin 1) j)) = _
  rw [V_v3]
  refine Eq.trans (congrArg _ (funext fun a => Fin.ext ?_)) (shapeCast_a_1a_apply _ shapeCasts_S256_S1x256 (0 : Fin 1) j)
  match a with
  | ⟨0, _⟩ => show win0_6.index t (0 : Fin 2) * 1 + 1 * 0 = 0; rw [f0]
  | ⟨1, _⟩ => show win0_6.index t (1 : Fin 2) * 256 + 1 * j.val = j.val; rw [f1]; omega

/-! ## The block written back is a block of the result -/

/-- Blocks that are batch `b` of the arrays give batch `b` of the result. -/
theorem blockOutAt_eq (x0 x1 x2 : Vec Ideal S1x1024x256 .f32) (x3 x4 : Vec Ideal S1x1024 .f32) (x5 x6 : Vec Ideal S1x256 .f32)
    (K Q W : S32x1024x256.Idx → EReal) (g1 b1 : S1024.Idx → EReal) (g2 b2 : S256.Idx → EReal) (b : Fin 32)
    (h0 : ∀ (i : Fin 1024) (e : Fin 256), x0 (ix3 (0 : Fin 1) i e) = K (ix3 b i e))
    (h1 : ∀ (i : Fin 1024) (e : Fin 256), x1 (ix3 (0 : Fin 1) i e) = Q (ix3 b i e))
    (h2 : ∀ (i : Fin 1024) (e : Fin 256), x2 (ix3 (0 : Fin 1) i e) = W (ix3 b i e))
    (h3 : ∀ j : Fin 1024, x3 (ix2 (0 : Fin 1) j) = g1 (ix1 j)) (h4 : ∀ j : Fin 1024, x4 (ix2 (0 : Fin 1) j) = b1 (ix1 j))
    (h5 : ∀ j : Fin 256, x5 (ix2 (0 : Fin 1) j) = g2 (ix1 j)) (h6 : ∀ j : Fin 256, x6 (ix2 (0 : Fin 1) j) = b2 (ix1 j))
    (i : Fin 1024) (d : Fin 256) :
    Block.blockOutAt x0 x1 x2 x3 x4 x5 x6 i d = Cert.Spec.outAt K Q W g1 b1 g2 b2 b i d := by
  unfold Block.blockOutAt Cert.Spec.outAt Cert.Spec.rowOf Cert.Spec.matOf Cert.Spec.vecOf
  simp only [h0, h1, h2, h3, h4, h5, h6]

theorem block_entry (c : Dev nD) (t : Fin cfg0.N) (y : S1x1024x256.Idx) :
    Block.blockOut (iblk m c 0 t) (iblk m c 1 t) (iblk m c 2 t) (iblk m c 3 t) (iblk m c 4 t) (iblk m c 5 t) (iblk m c 6 t) y
      = result m c (((cfg0.win 7).blk t).view.emb y) := by
  obtain ⟨u, i, d, rfl⟩ : ∃ (u : Fin 1) (i : Fin 1024) (d : Fin 256), y = ix3 u i d := ⟨y 0, y 1, y 2, eq_ix3 y⟩
  have hN : cfg0.N = 32 := N_0
  obtain ⟨-, -, -, -, -, -, -, -, -, -, -, -, -, -, -, -, -, f0, f1, f2⟩ := idx_facts t
  have hu : u.val = 0 := by omega
  have hemb : ((cfg0.win 7).blk t).view.emb (ix3 u i d) = ix3 (⟨t.val, by omega⟩ : Fin 32) i d := funext fun a => Fin.ext (by
    match a with
    | ⟨0, _⟩ => show win0_7.index t (0 : Fin 3) * 1 + 1 * u.val = t.val; rw [f0]; omega
    | ⟨1, _⟩ => show win0_7.index t (1 : Fin 3) * 1024 + 1 * i.val = i.val; rw [f1]; omega
    | ⟨2, _⟩ => show win0_7.index t (2 : Fin 3) * 256 + 1 * d.val = d.val; rw [f2]; omega)
  refine Eq.trans ?_ (congrArg (result m c) hemb).symm
  exact blockOutAt_eq _ _ _ _ _ _ _ _ _ _ _ _ _ _ (⟨t.val, by omega⟩ : Fin 32) (read0 m c t _ rfl) (read1 m c t _ rfl) (read2 m c t _ rfl)
    (read3 m c t) (read4 m c t) (read5 m c t) (read6 m c t) i d

/-- WHAT POINT `t` WRITES BACK is block `t` of the result. -/
theorem flushed_eq (c : Dev nD) (t : Fin cfg0.N) :
    (dats m 0 c).flushed 7 t = ((cfg0.win 7).blk t).view.read (Elt Ideal) (result m c) := by
  have hb := Block.out_block c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (iblk m c 0 t) (iblk m c 1 t) (iblk m c 2 t)
    (iblk m c 3 t) (iblk m c 4 t) (iblk m c 5 t) (iblk m c 6 t)
  rw [flushed7_A, hb]
  funext y
  exact block_entry m c t y

/-- An index of the array is in point `t`'s block iff each coordinate is in the block's range on its axis. -/
theorem mem_blk (t : Fin cfg0.N) (i : S32x1024x256.Idx) :
    i ∈ ((cfg0.win 7).blk t).view.set ↔ ∀ a : Fin 3, win0_7.index t a * S1x1024x256.size a ≤ (i a).val ∧ (i a).val < win0_7.index t a * S1x1024x256.size a + S1x1024x256.size a := by
  show i ∈ ((View.whole main_v4).slice (win0_7.rect t)).set ↔ _
  rw [View.set_slice_whole, Rect.mem_set_unit]
  exact Iff.rfl

/-- Every index of the result array is in the block of the point of its batch. -/
theorem covered (i : S32x1024x256.Idx) : ∃ t : Fin cfg0.N, (cfg0.win 7).flush t = true ∧ i ∈ ((cfg0.win 7).blk t).view.set := by
  have hN : cfg0.N = 32 := N_0
  have hi0 : (i 0).val < 32 := (i 0).isLt
  have hi1 : (i 1).val < 1024 := (i 1).isLt
  have hi2 : (i 2).val < 256 := (i 2).isLt
  refine ⟨⟨(i 0).val, by omega⟩, flush0_7 _, ?_⟩
  obtain ⟨-, -, -, -, -, -, -, -, -, -, -, -, -, -, -, -, -, f0', f1, f2⟩ := idx_facts (⟨(i 0).val, by omega⟩ : Fin cfg0.N)
  have f0 : win0_7.index (⟨(i 0).val, by omega⟩ : Fin cfg0.N) (0 : Fin 3) = (i 0).val := f0'
  rw [mem_blk]
  intro a
  match a with
  | ⟨0, _⟩ => show win0_7.index _ (0 : Fin 3) * 1 ≤ (i 0).val ∧ (i 0).val < win0_7.index _ (0 : Fin 3) * 1 + 1; rw [f0]; omega
  | ⟨1, _⟩ => show win0_7.index _ (1 : Fin 3) * 1024 ≤ (i 1).val ∧ (i 1).val < win0_7.index _ (1 : Fin 3) * 1024 + 1024; rw [f1]; omega
  | ⟨2, _⟩ => show win0_7.index _ (2 : Fin 3) * 256 ≤ (i 2).val ∧ (i 2).val < win0_7.index _ (2 : Fin 3) * 256 + 256; rw [f2]; omega

/-- THE ARRAY after the run is the specification's result. -/
theorem final (c : Dev nD) : (dats m 0 c).arrAt 7 cfg0.N = result m c :=
  (dats m 0 c).arrAt_eq_of_cover 7 (result m c) (fun t _ => flushed_eq m c t) covered

/-- The run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.RunValue

end
-- ==== Proof.RefIsSpec.lean ====
/-
  The reference program computes the specification function.

  The reference is a chain of whole-array operations; read at one element, each operation is a textbook
  expression in the elements of its operands.  Following the chain at batch `b`, row `i` and a column:

    * a key row `x = K[b,i,·]` becomes `x_d · rsqrt (max (∑ x²) ε)`, its unit row, and likewise each query row;
    * the first contraction pairs unit key row `i` with unit query row `j` along the feature axis: the cosine row;
    * the sum of the cosine row over its 1024 entries, divided by the word of 1024, is its mean; the sum of the
      squared deviations from that mean, divided by the same word, is its variance; the deviation times
      `rsqrt (variance + ε')` times the scale plus the shift is the normalised row;
    * the second contraction weights the value rows `V[b,j,·]` by the normalised row: the mixed row;
    * the same mean / variance / normalise steps over the 256 features of the mixed row give the result.

  Each reduction starts from the word of zero, which adds nothing.  A size-one axis inserted for a broadcast is
  read back at its only coordinate, so every intermediate is a function of `(b, i)` and one more coordinate;
  the index equations below say exactly this, one per composition of index maps, and are checked axis by axis.
-/
import proofs.«174450_j32263794328371_2_alg».proof.Proof.Gen.ReferenceIdeal.Read
import proofs.«174450_j32263794328371_2_alg».proof.Proof.Spec
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Read Idealize.ShloMosaic Idealize.ShloMosaic.ValueIdx

section Stages

variable (K Q V : (⟨S32x1024x256, .f32⟩ : BufTy).Contents (Elt Ideal))
  (g1 b1 : (⟨S1024, .f32⟩ : BufTy).Contents (Elt Ideal)) (g2 b2 : (⟨S256, .f32⟩ : BufTy).Contents (Elt Ideal))

/-! ## Unit rows -/

/-- The squared-norm sum behind element `(b, i, d)` of the scaled keys runs over row `(b, i)`. -/
theorem i_v1 (b : Fin 32) (i : Fin 1024) (d k : Fin 256) :
    idx_main_v1 (idx_main_v2 (idx_main_v6 (ix3 b i d))) k = ix3 b i k :=
  funext fun a => Fin.ext (by match a with | ⟨0, _⟩ => rfl | ⟨1, _⟩ => rfl | ⟨2, _⟩ => rfl)

/-- The same for the queries. -/
theorem i_v9 (b : Fin 32) (i : Fin 1024) (d k : Fin 256) :
    idx_main_v9 (idx_main_v10 (idx_main_v14 (ix3 b i d))) k = ix3 b i k :=
  funext fun a => Fin.ext (by match a with | ⟨0, _⟩ => rfl | ⟨1, _⟩ => rfl | ⟨2, _⟩ => rfl)

/-- The scaled key array at `(b, i, d)` is entry `d` of the unit row of `K[b,i,·]`. -/
theorem v7_eq (b : Fin 32) (i : Fin 1024) (d : Fin 256) :
    val_main_v7 (F := Ideal) K (ix3 b i d) = Cert.Spec.unitRow (Cert.Spec.rowOf K b i) d := by
  rw [val_main_v7_apply, val_main_v6_apply, val_main_v5_apply, val_main_v4_apply, val_main_v2_apply,
    val_main_v3_apply, val_main_cst_0_apply, val_main_v1_apply, val_main_cst_apply]
  simp only [i_v1, val_main_v0_apply, Ideal.mulf_def, Ideal.addf_def, Ideal.subf_def, Ideal.maximumf_def,
    Ideal.hostDivf_def, Ideal.hostUnary_rsqrt_def, Ideal.ofBits_def, Ideal.ofBits_zero_f32, zero_add]
  rfl

/-- The scaled query array at `(b, j, d)` is entry `d` of the unit row of `Q[b,j,·]`. -/
theorem v15_eq (b : Fin 32) (j : Fin 1024) (d : Fin 256) :
    val_main_v15 (F := Ideal) Q (ix3 b j d) = Cert.Spec.unitRow (Cert.Spec.rowOf Q b j) d := by
  rw [val_main_v15_apply, val_main_v14_apply, val_main_v13_apply, val_main_v12_apply, val_main_v10_apply,
    val_main_v11_apply, val_main_cst_2_apply, val_main_v9_apply, val_main_cst_1_apply]
  simp only [i_v9, val_main_v8_apply, Ideal.mulf_def, Ideal.addf_def, Ideal.subf_def, Ideal.maximumf_def,
    Ideal.hostDivf_def, Ideal.hostUnary_rsqrt_def, Ideal.ofBits_def, Ideal.ofBits_zero_f32, zero_add]
  rfl

/-! ## Cosine rows -/

/-- The first contraction at `(b, i, j)` reads key row `(b, i)` … -/
theorem i_l16 (b : Fin 32) (i j : Fin 1024) (k : Fin 256) : lidx_main_v16 (ix3 b i j) k = ix3 b i k :=
  funext fun a => Fin.ext (by match a with | ⟨0, _⟩ => rfl | ⟨1, _⟩ => rfl | ⟨2, _⟩ => rfl)

/-- … against query row `(b, j)`. -/
theorem i_r16 (b : Fin 32) (i j : Fin 1024) (k : Fin 256) : ridx_main_v16 (ix3 b i j) k = ix3 b j k :=
  funext fun a => Fin.ext (by match a with | ⟨0, _⟩ => rfl | ⟨1, _⟩ => rfl | ⟨2, _⟩ => rfl)

/-- The first contraction at `(b, i, j)` is the cosine of key row `i` and query row `j` of batch `b`. -/
theorem v16_eq (b : Fin 32) (i j : Fin 1024) :
    val_main_v16 (F := Ideal) K Q (ix3 b i j) = Cert.Spec.cosRow (Cert.Spec.rowOf K b i) (Cert.Spec.matOf Q b) j := by
  rw [val_main_v16_apply]
  simp only [i_l16, i_r16, v7_eq, v15_eq]
  rfl

/-! ## The cosine row normalised over the 1024 queries -/

/-- The sum behind the mean at `(b, i)` runs over the cosine row `(b, i)`. -/
theorem i_v17 (b : Fin 32) (i : Fin 1024) (z : Fin 1) (k : Fin 1024) :
    idx_main_v17 (idx_main_v18 (ix3 b i z)) k = ix3 b i k :=
  funext fun a => Fin.ext (by match a with | ⟨0, _⟩ => rfl | ⟨1, _⟩ => rfl | ⟨2, _⟩ => rfl)

/-- So does the sum behind the variance. -/
theorem i_v24 (b : Fin 32) (i : Fin 1024) (z : Fin 1) (k : Fin 1024) :
    idx_main_v24 (idx_main_v25 (ix3 b i z)) k = ix3 b i k :=
  funext fun a => Fin.ext (by match a with | ⟨0, _⟩ => rfl | ⟨1, _⟩ => rfl | ⟨2, _⟩ => rfl)

/-- The mean spread back along the row (for the squared deviations) is read at the row's one slot. -/
theorem i_v21 (b : Fin 32) (i j : Fin 1024) : idx_main_v21 (ix3 b i j) = ix3 b i (0 : Fin 1) :=
  funext fun a => Fin.ext (by match a with | ⟨0, _⟩ => rfl | ⟨1, _⟩ => rfl | ⟨2, _⟩ => rfl)

/-- The mean spread back along the row (for the centred row), likewise. -/
theorem i_v28 (b : Fin 32) (i j : Fin 1024) : idx_main_v28 (ix3 b i j) = ix3 b i (0 : Fin 1) :=
  funext fun a => Fin.ext (by match a with | ⟨0, _⟩ => rfl | ⟨1, _⟩ => rfl | ⟨2, _⟩ => rfl)

/-- The reciprocal deviation spread back along the row, likewise. -/
theorem i_v33 (b : Fin 32) (i j : Fin 1024) : idx_main_v33 (ix3 b i j) = ix3 b i (0 : Fin 1) :=
  funext fun a => Fin.ext (by match a with | ⟨0, _⟩ => rfl | ⟨1, _⟩ => rfl | ⟨2, _⟩ => rfl)

/-- The scale spread over batches and rows is read at the column. -/
theorem i_v36 (b : Fin 32) (i j : Fin 1024) : idx_main_v35 (idx_main_v36 (ix3 b i j)) = ix1 j :=
  funext fun a => Fin.ext (by match a with | ⟨0, _⟩ => rfl)

/-- The shift spread over batches and rows is read at the column. -/
theorem i_v39 (b : Fin 32) (i j : Fin 1024) : idx_main_v38 (idx_main_v39 (ix3 b i j)) = ix1 j :=
  funext fun a => Fin.ext (by match a with | ⟨0, _⟩ => rfl)

/-- The mean of cosine row `(b, i)`: zero plus the row's sum, over the word of 1024. -/
theorem v20_eq (b : Fin 32) (i : Fin 1024) (z : Fin 1) :
    val_main_v20 (F := Ideal) K Q (ix3 b i z)
      = Cert.Spec.rowMean (Cert.Spec.cosRow (Cert.Spec.rowOf K b i) (Cert.Spec.matOf Q b))
          (Ideal.ofBits .f32 0x44800000#32) := by
  rw [val_main_v20_apply, val_main_v18_apply, val_main_v19_apply, val_main_cst_4_apply, val_main_v17_apply,
    val_main_cst_3_apply]
  simp only [i_v17, v16_eq, Ideal.mulf_def, Ideal.addf_def, Ideal.subf_def, Ideal.maximumf_def,
    Ideal.hostDivf_def, Ideal.hostUnary_rsqrt_def, Ideal.ofBits_def, Ideal.ofBits_zero_f32, zero_add]
  rfl

/-- The variance of cosine row `(b, i)`: zero plus the sum of the squared deviations, over the word of 1024. -/
theorem v27_eq (b : Fin 32) (i : Fin 1024) (z : Fin 1) :
    val_main_v27 (F := Ideal) K Q (ix3 b i z)
      = Cert.Spec.rowVar (Cert.Spec.cosRow (Cert.Spec.rowOf K b i) (Cert.Spec.matOf Q b))
          (Ideal.ofBits .f32 0x44800000#32) := by
  rw [val_main_v27_apply, val_main_v25_apply, val_main_v26_apply, val_main_cst_6_apply, val_main_v24_apply,
    val_main_cst_5_apply]
  simp only [i_v24, val_main_v23_apply, val_main_v22_apply, val_main_v21_apply, i_v21, v20_eq, v16_eq,
    Ideal.mulf_def, Ideal.addf_def, Ideal.subf_def, Ideal.maximumf_def,
    Ideal.hostDivf_def, Ideal.hostUnary_rsqrt_def, Ideal.ofBits_def, Ideal.ofBits_zero_f32, zero_add]
  rfl

/-- The normalised cosine row: deviation times reciprocal deviation scale, times `g1`, plus `b1`. -/
theorem v40_eq (b : Fin 32) (i j : Fin 1024) :
    val_main_v40 (F := Ideal) K Q g1 b1 (ix3 b i j)
      = Cert.Spec.lnRow (Cert.Spec.cosRow (Cert.Spec.rowOf K b i) (Cert.Spec.matOf Q b))
          (Ideal.ofBits .f32 0x44800000#32) (Cert.Spec.vecOf g1) (Cert.Spec.vecOf b1) j := by
  rw [val_main_v40_apply, val_main_v37_apply, val_main_v34_apply, val_main_v29_apply, val_main_v28_apply,
    val_main_v33_apply, val_main_v32_apply, val_main_v31_apply, val_main_v30_apply, val_main_cst_7_apply,
    val_main_v36_apply, val_main_v35_apply, val_main_v39_apply, val_main_v38_apply]
  simp only [i_v28, i_v33, i_v36, i_v39, v16_eq, v20_eq, v27_eq,
    Ideal.mulf_def, Ideal.addf_def, Ideal.subf_def, Ideal.maximumf_def,
    Ideal.hostDivf_def, Ideal.hostUnary_rsqrt_def, Ideal.ofBits_def, Ideal.ofBits_zero_f32, zero_add]
  rfl

/-! ## Mixing with the values -/

/-- The second contraction at `(b, i, d)` reads normalised row `(b, i)` … -/
theorem i_l41 (b : Fin 32) (i : Fin 1024) (d : Fin 256) (k : Fin 1024) :
    lidx_main_v41 (ix3 b i d) k = ix3 b i k :=
  funext fun a => Fin.ext (by match a with | ⟨0, _⟩ => rfl | ⟨1, _⟩ => rfl | ⟨2, _⟩ => rfl)

/-- … against column `d` of the batch's value matrix. -/
theorem i_r41 (b : Fin 32) (i : Fin 1024) (d : Fin 256) (k : Fin 1024) :
    ridx_main_v41 (ix3 b i d) k = ix3 b k d :=
  funext fun a => Fin.ext (by match a with | ⟨0, _⟩ => rfl | ⟨1, _⟩ => rfl | ⟨2, _⟩ => rfl)

/-- The second contraction at `(b, i, d)` is entry `d` of the value rows weighted by the normalised cosine row. -/
theorem v41_eq (b : Fin 32) (i : Fin 1024) (d : Fin 256) :
    val_main_v41 (F := Ideal) K Q V g1 b1 (ix3 b i d)
      = Cert.Spec.mixRow (Cert.Spec.lnRow (Cert.Spec.cosRow (Cert.Spec.rowOf K b i) (Cert.Spec.matOf Q b))
          (Ideal.ofBits .f32 0x44800000#32) (Cert.Spec.vecOf g1) (Cert.Spec.vecOf b1)) (Cert.Spec.matOf V b) d := by
  rw [val_main_v41_apply]
  simp only [i_l41, i_r41, v40_eq]
  rfl

/-! ## The mixed row normalised over the 256 features -/

/-- The sum behind the mean at `(b, i)` runs over the mixed row `(b, i)`. -/
theorem i_v42 (b : Fin 32) (i : Fin 1024) (z : Fin 1) (k : Fin 256) :
    idx_main_v42 (idx_main_v43 (ix3 b i z)) k = ix3 b i k :=
  funext fun a => Fin.ext (by match a with | ⟨0, _⟩ => rfl | ⟨1, _⟩ => rfl | ⟨2, _⟩ => rfl)

/-- So does the sum behind the variance. -/
theorem i_v49 (b : Fin 32) (i : Fin 1024) (z : Fin 1) (k : Fin 256) :
    idx_main_v49 (idx_main_v50 (ix3 b i z)) k = ix3 b i k :=
  funext fun a => Fin.ext (by match a with | ⟨0, _⟩ => rfl | ⟨1, _⟩ => rfl | ⟨2, _⟩ => rfl)

/-- The mean spread back along the row (for the squared deviations) is read at the row's one slot. -/
theorem i_v46 (b : Fin 32) (i : Fin 1024) (d : Fin 256) : idx_main_v46 (ix3 b i d) = ix3 b i (0 : Fin 1) :=
  funext fun a => Fin.ext (by match a with | ⟨0, _⟩ => rfl | ⟨1, _⟩ => rfl | ⟨2, _⟩ => rfl)

/-- The mean spread back along the row (for the centred row), likewise. -/
theorem i_v53 (b : Fin 32) (i : Fin 1024) (d : Fin 256) : idx_main_v53 (ix3 b i d) = ix3 b i (0 : Fin 1) :=
  funext fun a => Fin.ext (by match a with | ⟨0, _⟩ => rfl | ⟨1, _⟩ => rfl | ⟨2, _⟩ => rfl)

/-- The reciprocal deviation spread back along the row, likewise. -/
theorem i_v58 (b : Fin 32) (i : Fin 1024) (d : Fin 256) : idx_main_v58 (ix3 b i d) = ix3 b i (0 : Fin 1) :=
  funext fun a => Fin.ext (by match a with | ⟨0, _⟩ => rfl | ⟨1, _⟩ => rfl | ⟨2, _⟩ => rfl)

/-- The scale spread over batches and rows is read at the feature. -/
theorem i_v61 (b : Fin 32) (i : Fin 1024) (d : Fin 256) : idx_main_v60 (idx_main_v61 (ix3 b i d)) = ix1 d :=
  funext fun a => Fin.ext (by match a with | ⟨0, _⟩ => rfl)

/-- The shift spread over batches and rows is read at the feature. -/
theorem i_v64 (b : Fin 32) (i : Fin 1024) (d : Fin 256) : idx_main_v63 (idx_main_v64 (ix3 b i d)) = ix1 d :=
  funext fun a => Fin.ext (by match a with | ⟨0, _⟩ => rfl)

/-- The mean of mixed row `(b, i)`: zero plus the row's sum, over the word of 256. -/
theorem v45_eq (b : Fin 32) (i : Fin 1024) (z : Fin 1) :
    val_main_v45 (F := Ideal) K Q V g1 b1 (ix3 b i z)
      = Cert.Spec.rowMean (Cert.Spec.mixRow (Cert.Spec.lnRow (Cert.Spec.cosRow (Cert.Spec.rowOf K b i) (Cert.Spec.matOf Q b))
          (Ideal.ofBits .f32 0x44800000#32) (Cert.Spec.vecOf g1) (Cert.Spec.vecOf b1)) (Cert.Spec.matOf V b))
          (Ideal.ofBits .f32 0x43800000#32) := by
  rw [val_main_v45_apply, val_main_v43_apply, val_main_v44_apply, val_main_cst_9_apply, val_main_v42_apply,
    val_main_cst_8_apply]
  simp only [i_v42, v41_eq, Ideal.mulf_def, Ideal.addf_def, Ideal.subf_def, Ideal.maximumf_def,
    Ideal.hostDivf_def, Ideal.hostUnary_rsqrt_def, Ideal.ofBits_def, Ideal.ofBits_zero_f32, zero_add]
  rfl

/-- The variance of mixed row `(b, i)`: zero plus the sum of the squared deviations, over the word of 256. -/
theorem v52_eq (b : Fin 32) (i : Fin 1024) (z : Fin 1) :
    val_main_v52 (F := Ideal) K Q V g1 b1 (ix3 b i z)
      = Cert.Spec.rowVar (Cert.Spec.mixRow (Cert.Spec.lnRow (Cert.Spec.cosRow (Cert.Spec.rowOf K b i) (Cert.Spec.matOf Q b))
          (Ideal.ofBits .f32 0x44800000#32) (Cert.Spec.vecOf g1) (Cert.Spec.vecOf b1)) (Cert.Spec.matOf V b))
          (Ideal.ofBits .f32 0x43800000#32) := by
  rw [val_main_v52_apply, val_main_v50_apply, val_main_v51_apply, val_main_cst_11_apply, val_main_v49_apply,
    val_main_cst_10_apply]
  simp only [i_v49, val_main_v48_apply, val_main_v47_apply, val_main_v46_apply, i_v46, v45_eq, v41_eq,
    Ideal.mulf_def, Ideal.addf_def, Ideal.subf_def, Ideal.maximumf_def,
    Ideal.hostDivf_def, Ideal.hostUnary_rsqrt_def, Ideal.ofBits_def, Ideal.ofBits_zero_f32, zero_add]
  rfl

/-- The last array at `(b, i, d)` is the specification's value there. -/
theorem v65_eq (b : Fin 32) (i : Fin 1024) (d : Fin 256) :
    val_main_v65 (F := Ideal) K Q V g1 b1 g2 b2 (ix3 b i d) = Cert.Spec.outAt K Q V g1 b1 g2 b2 b i d := by
  rw [val_main_v65_apply, val_main_v62_apply, val_main_v59_apply, val_main_v54_apply, val_main_v53_apply,
    val_main_v58_apply, val_main_v57_apply, val_main_v56_apply, val_main_v55_apply, val_main_cst_12_apply,
    val_main_v61_apply, val_main_v60_apply, val_main_v64_apply, val_main_v63_apply]
  simp only [i_v53, i_v58, i_v61, i_v64, v41_eq, v45_eq, v52_eq,
    Ideal.mulf_def, Ideal.addf_def, Ideal.subf_def, Ideal.maximumf_def,
    Ideal.hostDivf_def, Ideal.hostUnary_rsqrt_def, Ideal.ofBits_def, Ideal.ofBits_zero_f32, zero_add]
  rfl

end Stages

/-! ## The whole array -/

/-- The reference's result is the specification function of its seven arguments: every index of the result is
    a triple of coordinates, and at a triple the two agree by the chain above. -/
theorem ref_eq_spec (K Q V : (⟨S32x1024x256, .f32⟩ : BufTy).Contents (Elt Ideal))
    (g1 b1 : (⟨S1024, .f32⟩ : BufTy).Contents (Elt Ideal)) (g2 b2 : (⟨S256, .f32⟩ : BufTy).Contents (Elt Ideal)) :
    Cert.ReferenceIdeal.Read.val_main_v65 (F := Ideal) K Q V g1 b1 g2 b2 = Cert.Spec.out K Q V g1 b1 g2 b2 := by
  funext y
  obtain ⟨b, i, d, rfl⟩ : ∃ (b : Fin 32) (i : Fin 1024) (d : Fin 256), y = ix3 b i d :=
    ⟨y 0, y 1, y 2, ValueIdx.eq_ix3 y⟩
  rw [Cert.Spec.out_ix3]
  exact v65_eq K Q V g1 b1 g2 b2 b i d

end Cert.ReferenceIdeal.RefValue

end
-- ==== Proof.lean ====
/-
  Cosine attention with two row normalisations: the kernel against its array-level reference, over the extended reals.

  For each of 32 batches, with `k`, `q`, `v` of 1024 rows and 256 features: every row of `k` and `q` is scaled to unit
  length (`x · rsqrt (max (∑ x²) ε)`); the 1024 × 1024 matrix of their inner products is normalised row by row
  (mean zero, unit variance with floor, then a per-column scale and shift); that matrix multiplies `v`; the
  1024 × 256 product is normalised row by row again.  The reference does this with whole-array operations on the
  host.  The kernel runs one grid point per batch; it scales the query rows once, then handles the key rows in four
  slabs of 256, each slab going through the whole chain and being stored into its quarter of the output block.

  Both compute the same function (`Cert.Spec.out`): every entry of the result depends on one key row and on the whole
  query and value matrices of its batch, and on either side it is obtained by the same operations in the same
  order — only the slabs, the batching and the spelling of a sum over an axis differ, and finite sums over the
  extended reals do not depend on those.  No algebraic law beyond that is needed, so the finiteness of the inputs
  is not used.  The kernel's idealisation rewrote nothing, so the `preserves` conjunct is `True`.

  Modules: `Spec` (the function), `RefIsSpec` (the reference's composed term is it), `LibRowOps` / `LibMatmulRows`
  (a lane sum, a column view and its spreading, and the two matrix products, read at an entry), `Rows` (the two
  per-row stretches of the body), `Tile` / `TileValue` (one slab), `KernelBlock` (the four slabs tile the block),
  `KernelArray` (the 32 blocks tile the array; the kernel's run).
-/
import proofs.«174450_j32263794328371_2_alg».proof.Defs
import proofs.«174450_j32263794328371_2_alg».proof.Proof.Gen.Kernel
import proofs.«174450_j32263794328371_2_alg».proof.Proof.Gen.Kernel.Skeleton
import proofs.«174450_j32263794328371_2_alg».proof.Proof.Gen.Kernel.Launch
import proofs.«174450_j32263794328371_2_alg».proof.Proof.Gen.Kernel.Points
import proofs.«174450_j32263794328371_2_alg».proof.Proof.Gen.Kernel.Frame
import proofs.«174450_j32263794328371_2_alg».proof.Proof.Gen.KernelIdeal
import proofs.«174450_j32263794328371_2_alg».proof.Proof.Gen.KernelIdeal.Skeleton
import proofs.«174450_j32263794328371_2_alg».proof.Proof.Gen.KernelIdeal.Launch
import proofs.«174450_j32263794328371_2_alg».proof.Proof.Gen.KernelIdeal.Points
import proofs.«174450_j32263794328371_2_alg».proof.Proof.Gen.KernelIdeal.Frame
import proofs.«174450_j32263794328371_2_alg».proof.Proof.Gen.ReferenceIdeal
import proofs.«174450_j32263794328371_2_alg».proof.Proof.Gen.Pre_finite_inputs
import proofs.«174450_j32263794328371_2_alg».proof.Proof.Gen.KernelIdeal.Value
import proofs.«174450_j32263794328371_2_alg».proof.Proof.Gen.ReferenceIdeal.Run
import proofs.«174450_j32263794328371_2_alg».proof.Proof.Gen.ReferenceIdeal.Read
import proofs.«174450_j32263794328371_2_alg».proof.Proof.KernelArray
import proofs.«174450_j32263794328371_2_alg».proof.Proof.RefIsSpec
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference is a straight line of host operations: it runs, and writes none of its arguments. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the idealised kernel. -/
theorem preserves : Cert.preserves_Kernel_KernelIdeal := trivial

/-- From memories agreeing on the seven arguments both programs end with the result array at the specification's
    function of those arguments. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v65_eq, Cert.ReferenceIdeal.RefValue.ref_eq_spec, h0, h1, h2, h3, h4, h5, h6]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
